-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v16_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v16_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x48 : Shape := ⟨2, ![262144, 48]⟩
abbrev S262144x256 : Shape := ⟨2, ![262144, 256]⟩
abbrev S48x256 : Shape := ⟨2, ![48, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S_ : Shape := ⟨0, ![]⟩

class Facts : Prop where
  bcast_S_S262144x48 : S_.BroadcastsInDim S262144x48 (![] : Fin 0 → Fin S262144x48.rank)
  reducesTo_S262144x48_S_d0_1 : S262144x48.ReducesTo [0, 1] S_
  h_S_ : 0 < S_.numel
  bcast_S_S262144x256 : S_.BroadcastsInDim S262144x256 (![] : Fin 0 → Fin S262144x256.rank)
  reducesTo_S262144x256_S_d0_1 : S262144x256.ReducesTo [0, 1] S_
  bcast_S_S48x256 : S_.BroadcastsInDim S48x256 (![] : Fin 0 → Fin S48x256.rank)
  reducesTo_S48x256_S_d0_1 : S48x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part5 {F : FTy → Type} [FloatOps F] (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  main_v88

def fn_part4 {F : FTy → Type} [FloatOps F] (main_arg14 : FVec F S256 .f32) (main_arg15 : FVec F S256 .f32) (main_arg16 : FVec F S256x32 .f32) (main_arg17 : FVec F S32 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x32 .f32 := Host.absf main_arg16
  let main_cst_30 : FVec F S_ .f32 := constant S_ .f32 0x7F800000#32
  let main_v80 : FVec F S256x32 .f32 := broadcastInDim S256x32 ![] bcast_S_S256x32 main_cst_30
  let main_v81 : IVec S256x32 1 := cmpf .olt main_v79 main_v80
  let main_c_31 : IVec S_ 1 := constantI S_ 1 1#1
  let main_v82 : IVec S_ 1 := (fun x v => Host.reduce IntOp.andi x v reducesTo_S256x32_S_d0_1 h_S_) main_v81 main_c_31
  let main_v83 : IVec S_ 1 := andi main_v78 main_v82
  let main_v84 : FVec F S32 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256 .f32) (main_arg12 : FVec F S256 .f32) (main_arg13 : FVec F S256 .f32) (main_arg14 : FVec F S256 .f32) (main_arg15 : FVec F S256 .f32) (main_arg16 : FVec F S256x32 .f32) (main_arg17 : FVec F S32 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_v63 main_v67

def fn_part2 {F : FTy → Type} [FloatOps F] (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_arg14 : FVec F S256 .f32) (main_arg15 : FVec F S256 .f32) (main_arg16 : FVec F S256x32 .f32) (main_arg17 : FVec F S32 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_v48 main_v49 main_v50

def fn_part1 {F : FTy → Type} [FloatOps F] (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_arg14 : FVec F S256 .f32) (main_arg15 : FVec F S256 .f32) (main_arg16 : FVec F S256x32 .f32) (main_arg17 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S262144x48 .f32) (main_arg1 : FVec F S262144x256 .f32) (main_arg2 : FVec F S48x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_arg14 : FVec F S256 .f32) (main_arg15 : FVec F S256 .f32) (main_arg16 : FVec F S256x32 .f32) (main_arg17 : FVec F S32 .f32) : IVec S_ 1 :=
  let main_v0 : FVec F S262144x48 .f32 := Host.absf main_arg0
  let main_cst : FVec F S_ .f32 := constant S_ .f32 0x7F800000#32
  let main_v1 : FVec F S262144x48 .f32 := broadcastInDim S262144x48 ![] bcast_S_S262144x48 main_cst
  let main_v2 : IVec S262144x48 1 := cmpf .olt main_v0 main_v1
  let main_c : IVec S_ 1 := constantI S_ 1 1#1
  let main_v3 : IVec S_ 1 := (fun x v => Host.reduce IntOp.andi x v reducesTo_S262144x48_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  let main_v9 : FVec F S48x256 .f32 := Host.absf main_arg2
  let main_cst_2 : FVec F S_ .f32 := constant S_ .f32 0x7F800000#32
  let main_v10 : FVec F S48x256 .f32 := broadcastInDim S48x256 ![] bcast_S_S48x256 main_cst_2
  let main_v11 : IVec S48x256 1 := cmpf .olt main_v9 main_v10
  let main_c_3 : IVec S_ 1 := constantI S_ 1 1#1
  let main_v12 : IVec S_ 1 := (fun x v => Host.reduce IntOp.andi x v reducesTo_S48x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S262144x48 : Shape := ⟨2, ![262144, 48]⟩
abbrev S262144x256 : Shape := ⟨2, ![262144, 256]⟩
abbrev S48x256 : Shape := ⟨2, ![48, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S1x256 : Shape := ⟨2, ![1, 256]⟩
abbrev S1x32 : Shape := ⟨2, ![1, 32]⟩
abbrev S262144x32 : Shape := ⟨2, ![262144, 32]⟩
abbrev S2048x48 : Shape := ⟨2, ![2048, 48]⟩
abbrev S2048x256 : Shape := ⟨2, ![2048, 256]⟩
abbrev S2048x32 : Shape := ⟨2, ![2048, 32]⟩
abbrev S2048 : Shape := ⟨1, ![2048]⟩
abbrev S2048x1 : Shape := ⟨2, ![2048, 1]⟩
abbrev S262144x8x4 : Shape := ⟨3, ![262144, 8, 4]⟩

abbrev nBuf : Space → Nat
  | .hbm => 37
  | .vmem => 24
  | .smem => 0
  | _ => 0

abbrev bufTy : (tb : Table) → Fin (tcTables nBuf tb) → BufTy
  | .hbm, ⟨0, _⟩ => ⟨S262144x48, .f32⟩
  | .hbm, ⟨1, _⟩ => ⟨S262144x256, .f32⟩
  | .hbm, ⟨2, _⟩ => ⟨S48x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256x32, .f32⟩
  | .hbm, ⟨17, _⟩ => ⟨S32, .f32⟩
  | .hbm, ⟨18, _⟩ => ⟨S48x256, .bf16⟩
  | .hbm, ⟨19, _⟩ => ⟨S256x256, .bf16⟩
  | .hbm, ⟨20, _⟩ => ⟨S256x256, .bf16⟩
  | .hbm, ⟨21, _⟩ => ⟨S256x32, .bf16⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x32, .f32⟩
  | .hbm, ⟨34, _⟩ => ⟨S262144x256, .f32⟩
  | .hbm, ⟨35, _⟩ => ⟨S262144x32, .f32⟩
  | .hbm, ⟨36, _⟩ => ⟨S262144x8x4, .f32⟩
  | .local _ .vmem, ⟨0, _⟩ => ⟨S2048x48, .f32⟩
  | .local _ .vmem, ⟨1, _⟩ => ⟨S2048x48, .f32⟩
  | .local _ .vmem, ⟨2, _⟩ => ⟨S2048x256, .f32⟩
  | .local _ .vmem, ⟨3, _⟩ => ⟨S2048x256, .f32⟩
  | .local _ .vmem, ⟨4, _⟩ => ⟨S48x256, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x32, .bf16⟩
  | .local _ .vmem, ⟨19, _⟩ => ⟨S1x32, .f32⟩
  | .local _ .vmem, ⟨20, _⟩ => ⟨S2048x256, .f32⟩
  | .local _ .vmem, ⟨21, _⟩ => ⟨S2048x256, .f32⟩
  | .local _ .vmem, ⟨22, _⟩ => ⟨S2048x32, .f32⟩
  | .local _ .vmem, ⟨23, _⟩ => ⟨S2048x32, .f32⟩
  | _, _ => ⟨S262144x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev main_v17 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x32 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2048x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048x32 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bitsLt_bf16_f32 : FTy.bits .bf16 < FTy.bits .f32
  shapeCasts_S256_S1x256 : S256.ShapeCasts S1x256
  shapeCasts_S32_S1x32 : S32.ShapeCasts S1x32
  inb_S2048x48_S2048x48_0_0 : ∀ a, (![0, 0] : Fin 2 → Nat) a + S2048x48.size a ≤ S2048x48.size a
  h_S2048x48 : 0 < S2048x48.numel
  inb_S2048x256_S2048x256_0_0 : ∀ a, (![0, 0] : Fin 2 → Nat) a + S2048x256.size a ≤ S2048x256.size a
  h_S2048x256 : 0 < S2048x256.numel
  inb_S48x256_S48x256_0_0 : ∀ a, (![0, 0] : Fin 2 → Nat) a + S48x256.size a ≤ S48x256.size a
  h_S48x256 : 0 < S48x256.numel
  shapeCasts_S48x256_S48x256 : S48x256.ShapeCasts S48x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  shapeCasts_S262144x32_S262144x8x4 : S262144x32.ShapeCasts S262144x8x4
  dot_S2048x48_S48x256_S2048x256_1_0_0_1_n_n_wf : DotDims.WF S2048x48 S48x256 S2048x256 [1] [0] [0] [1] [] []
  dot_S2048x256_S256x256_S2048x256_1_0_0_1_n_n_wf : DotDims.WF S2048x256 S256x256 S2048x256 [1] [0] [0] [1] [] []
  dot_S2048x256_S256x32_S2048x32_1_0_0_1_n_n_wf : DotDims.WF S2048x256 S256x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x48.size a ≤ S262144x48.size a
  hwx0_0 : ∀ i : grid0.Coords, EltTy.bits .f32 = 32 ∨ (Rect.block (s := S262144x48) S2048x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S262144x256.size a
  hwx0_1 : ∀ i : grid0.Coords, EltTy.bits .f32 = 32 ∨ (Rect.block (s := S262144x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x256.size a ≤ S48x256.size a
  hwx0_2 : ∀ i : grid0.Coords, EltTy.bits .bf16 = 32 ∨ (Rect.block (s := S48x256) S48x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x32.size a ≤ S256x32.size a
  hwx0_16 : ∀ i : grid0.Coords, EltTy.bits .bf16 = 32 ∨ (Rect.block (s := S256x32) S256x32.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x32.size a ≤ S1x32.size a
  hwx0_17 : ∀ i : grid0.Coords, EltTy.bits .f32 = 32 ∨ (Rect.block (s := S1x32) S1x32.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2048x256.size a ≤ S262144x256.size a
  hwx0_18 : ∀ i : grid0.Coords, EltTy.bits .f32 = 32 ∨ (Rect.block (s := S262144x256) S2048x256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2048x32.size a ≤ S262144x32.size a
  hwx0_19 : ∀ i : grid0.Coords, EltTy.bits .f32 = 32 ∨ (Rect.block (s := S262144x32) S2048x32.size (cc0_transform_19 i) (hinb0_19 i)).WholeWords (EltTy.packing .f32)

variable [Facts₀]

def dot_S2048x48_S48x256_S2048x256_1_0_0_1_n_n : DotDims S2048x48 S48x256 S2048x256 where
  lhsContracting := [1]
  rhsContracting := [0]
  lhsNonContracting := [0]
  rhsNonContracting := [1]
  lhsBatch := []
  rhsBatch := []
  wf := dot_S2048x48_S48x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf

abbrev win0_0 : Pipeline.Window sig grid0 :=
  Pipeline.Window.ofSpec (Memref.whole main_arg0) S2048x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S48x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v14) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v3) S256x32.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v15) S1x32.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v16_0) S2048x256.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v16_1) S2048x32.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S262144x48 : Shape := ⟨2, ![262144, 48]⟩
abbrev S262144x256 : Shape := ⟨2, ![262144, 256]⟩
abbrev S48x256 : Shape := ⟨2, ![48, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S1x256 : Shape := ⟨2, ![1, 256]⟩
abbrev S_ : Shape := ⟨0, ![]⟩
abbrev S262144 : Shape := ⟨1, ![262144]⟩
abbrev S262144x1 : Shape := ⟨2, ![262144, 1]⟩
abbrev S262144x32 : Shape := ⟨2, ![262144, 32]⟩
abbrev S1x32 : Shape := ⟨2, ![1, 32]⟩
abbrev S262144x8x4 : Shape := ⟨3, ![262144, 8, 4]⟩

abbrev nBuf : Space → Nat
  | .hbm => 159
  | .vmem => 0
  | .smem => 0
  | _ => 0

abbrev hbmTy0_0 (i : Nat) : BufTy := match i % 128 with
  | 0 => ⟨S262144x48, .f32⟩
  | 1 => ⟨S262144x256, .f32⟩
  | 2 => ⟨S48x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x256, .f32⟩
  | 11 => ⟨S256, .f32⟩
  | 12 => ⟨S256, .f32⟩
  | 13 => ⟨S256, .f32⟩
  | 14 => ⟨S256, .f32⟩
  | 15 => ⟨S256, .f32⟩
  | 16 => ⟨S256x32, .f32⟩
  | 17 => ⟨S32, .f32⟩
  | 18 => ⟨S262144x256, .f32⟩
  | 19 => ⟨S1x256, .f32⟩
  | 20 => ⟨S262144x256, .f32⟩
  | 21 => ⟨S262144x256, .f32⟩
  | 22 => ⟨S_, .f32⟩
  | 23 => ⟨S262144, .f32⟩
  | 24 => ⟨S262144x1, .f32⟩
  | 25 => ⟨S_, .f32⟩
  | 26 => ⟨S262144x1, .f32⟩
  | 27 => ⟨S262144x1, .f32⟩
  | 28 => ⟨S262144x256, .f32⟩
  | 29 => ⟨S262144x256, .f32⟩
  | 30 => ⟨S262144x256, .f32⟩
  | 31 => ⟨S_, .f32⟩
  | 32 => ⟨S262144, .f32⟩
  | 33 => ⟨S262144x1, .f32⟩
  | 34 => ⟨S_, .f32⟩
  | 35 => ⟨S262144x1, .f32⟩
  | 36 => ⟨S262144x1, .f32⟩
  | 37 => ⟨S262144x256, .f32⟩
  | 38 => ⟨S262144x256, .f32⟩
  | 39 => ⟨S_, .f32⟩
  | 40 => ⟨S262144x1, .f32⟩
  | 41 => ⟨S262144x1, .f32⟩
  | 42 => ⟨S262144x1, .f32⟩
  | 43 => ⟨S262144x256, .f32⟩
  | 44 => ⟨S262144x256, .f32⟩
  | 45 => ⟨S1x256, .f32⟩
  | 46 => ⟨S262144x256, .f32⟩
  | 47 => ⟨S262144x256, .f32⟩
  | 48 => ⟨S1x256, .f32⟩
  | 49 => ⟨S262144x256, .f32⟩
  | 50 => ⟨S262144x256, .f32⟩
  | 51 => ⟨S262144x256, .f32⟩
  | 52 => ⟨S1x256, .f32⟩
  | 53 => ⟨S262144x256, .f32⟩
  | 54 => ⟨S262144x256, .f32⟩
  | 55 => ⟨S_, .f32⟩
  | 56 => ⟨S262144x256, .f32⟩
  | 57 => ⟨S262144x256, .f32⟩
  | 58 => ⟨S_, .f32⟩
  | 59 => ⟨S262144, .f32⟩
  | 60 => ⟨S262144x1, .f32⟩
  | 61 => ⟨S_, .f32⟩
  | 62 => ⟨S262144x1, .f32⟩
  | 63 => ⟨S262144x1, .f32⟩
  | 64 => ⟨S262144x256, .f32⟩
  | 65 => ⟨S262144x256, .f32⟩
  | 66 => ⟨S262144x256, .f32⟩
  | 67 => ⟨S_, .f32⟩
  | 68 => ⟨S262144, .f32⟩
  | 69 => ⟨S262144x1, .f32⟩
  | 70 => ⟨S_, .f32⟩
  | 71 => ⟨S262144x1, .f32⟩
  | 72 => ⟨S262144x1, .f32⟩
  | 73 => ⟨S262144x256, .f32⟩
  | 74 => ⟨S262144x256, .f32⟩
  | 75 => ⟨S_, .f32⟩
  | 76 => ⟨S262144x1, .f32⟩
  | 77 => ⟨S262144x1, .f32⟩
  | 78 => ⟨S262144x1, .f32⟩
  | 79 => ⟨S262144x256, .f32⟩
  | 80 => ⟨S262144x256, .f32⟩
  | 81 => ⟨S1x256, .f32⟩
  | 82 => ⟨S262144x256, .f32⟩
  | 83 => ⟨S262144x256, .f32⟩
  | 84 => ⟨S1x256, .f32⟩
  | 85 => ⟨S262144x256, .f32⟩
  | 86 => ⟨S262144x256, .f32⟩
  | 87 => ⟨S262144x256, .f32⟩
  | 88 => ⟨S262144x256, .f32⟩
  | 89 => ⟨S1x256, .f32⟩
  | 90 => ⟨S262144x256, .f32⟩
  | 91 => ⟨S262144x256, .f32⟩
  | 92 => ⟨S_, .f32⟩
  | 93 => ⟨S262144, .f32⟩
  | 94 => ⟨S262144x1, .f32⟩
  | 95 => ⟨S_, .f32⟩
  | 96 => ⟨S262144x1, .f32⟩
  | 97 => ⟨S262144x1, .f32⟩
  | 98 => ⟨S262144x256, .f32⟩
  | 99 => ⟨S262144x256, .f32⟩
  | 100 => ⟨S262144x256, .f32⟩
  | 101 => ⟨S_, .f32⟩
  | 102 => ⟨S262144, .f32⟩
  | 103 => ⟨S262144x1, .f32⟩
  | 104 => ⟨S_, .f32⟩
  | 105 => ⟨S262144x1, .f32⟩
  | 106 => ⟨S262144x1, .f32⟩
  | 107 => ⟨S262144x256, .f32⟩
  | 108 => ⟨S262144x256, .f32⟩
  | 109 => ⟨S_, .f32⟩
  | 110 => ⟨S262144x1, .f32⟩
  | 111 => ⟨S262144x1, .f32⟩
  | 112 => ⟨S262144x1, .f32⟩
  | 113 => ⟨S262144x256, .f32⟩
  | 114 => ⟨S262144x256, .f32⟩
  | 115 => ⟨S1x256, .f32⟩
  | 116 => ⟨S262144x256, .f32⟩
  | 117 => ⟨S262144x256, .f32⟩
  | 118 => ⟨S1x256, .f32⟩
  | 119 => ⟨S262144x256, .f32⟩
  | 120 => ⟨S262144x256, .f32⟩
  | 121 => ⟨S262144x256, .f32⟩
  | 122 => ⟨S_, .f32⟩
  | 123 => ⟨S262144x256, .f32⟩
  | 124 => ⟨S262144x256, .f32⟩
  | 125 => ⟨S_, .f32⟩
  | 126 => ⟨S262144, .f32⟩
  | 127 => ⟨S262144x1, .f32⟩
  | _ => ⟨S262144x48, .f32⟩

abbrev hbmTy0_1 (i : Nat) : BufTy := match i % 128 with
  | 0 => ⟨S_, .f32⟩
  | 1 => ⟨S262144x1, .f32⟩
  | 2 => ⟨S262144x1, .f32⟩
  | 3 => ⟨S262144x256, .f32⟩
  | 4 => ⟨S262144x256, .f32⟩
  | 5 => ⟨S262144x256, .f32⟩
  | 6 => ⟨S_, .f32⟩
  | 7 => ⟨S262144, .f32⟩
  | 8 => ⟨S262144x1, .f32⟩
  | 9 => ⟨S_, .f32⟩
  | 10 => ⟨S262144x1, .f32⟩
  | 11 => ⟨S262144x1, .f32⟩
  | 12 => ⟨S262144x256, .f32⟩
  | 13 => ⟨S262144x256, .f32⟩
  | 14 => ⟨S_, .f32⟩
  | 15 => ⟨S262144x1, .f32⟩
  | 16 => ⟨S262144x1, .f32⟩
  | 17 => ⟨S262144x1, .f32⟩
  | 18 => ⟨S262144x256, .f32⟩
  | 19 => ⟨S262144x256, .f32⟩
  | 20 => ⟨S1x256, .f32⟩
  | 21 => ⟨S262144x256, .f32⟩
  | 22 => ⟨S262144x256, .f32⟩
  | 23 => ⟨S1x256, .f32⟩
  | 24 => ⟨S262144x256, .f32⟩
  | 25 => ⟨S262144x256, .f32⟩
  | 26 => ⟨S262144x32, .f32⟩
  | 27 => ⟨S1x32, .f32⟩
  | 28 => ⟨S262144x32, .f32⟩
  | 29 => ⟨S262144x32, .f32⟩
  | 30 => ⟨S262144x8x4, .f32⟩
  | _ => ⟨S262144x48, .f32⟩

abbrev hbmTy (i : Nat) : BufTy := match i / 128 with
  | 0 => hbmTy0_0 i
  | 1 => hbmTy0_1 i
  | _ => ⟨S262144x48, .f32⟩

abbrev bufTy : (tb : Table) → Fin (tcTables nBuf tb) → BufTy
  | .hbm, ⟨i, _⟩ => hbmTy i
  | _, _ => ⟨S262144x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call0_cst : Ref sig .tc := ⟨.hbm, 55, rfl⟩
abbrev main_call0_v0 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_9 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_11 : Ref sig .tc := ⟨.hbm, 101, rfl⟩
abbrev main_v69 : Ref sig .tc := ⟨.hbm, 102, rfl⟩
abbrev main_v70 : Ref sig .tc := ⟨.hbm, 103, rfl⟩
abbrev main_cst_12 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_13 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call1_cst : Ref sig .tc := ⟨.hbm, 122, rfl⟩
abbrev main_call1_v0 : Ref sig .tc := ⟨.hbm, 123, rfl⟩
abbrev main_v87 : Ref sig .tc := ⟨.hbm, 124, rfl⟩
abbrev main_cst_14 : Ref sig .tc := ⟨.hbm, 125, rfl⟩
abbrev main_v88 : Ref sig .tc := ⟨.hbm, 126, rfl⟩
abbrev main_v89 : Ref sig .tc := ⟨.hbm, 127, rfl⟩
abbrev main_cst_15 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_16 : Ref sig .tc := ⟨.hbm, 134, rfl⟩
abbrev main_v95 : Ref sig .tc := ⟨.hbm, 135, rfl⟩
abbrev main_v96 : Ref sig .tc := ⟨.hbm, 136, rfl⟩
abbrev main_cst_17 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_18 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  reducesTo_S262144x256_S262144_d1 : S262144x256.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x256_0_1 : S262144x1.BroadcastsInDim S262144x256 (![0, 1] : Fin 2 → Fin S262144x256.rank)
  bcast_S_S262144x256 : S_.BroadcastsInDim S262144x256 (![] : Fin 0 → Fin S262144x256.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  shapeCasts_S262144x32_S262144x8x4 : S262144x32.ShapeCasts S262144x8x4
  dot_S262144x48_S48x256_S262144x256_1_0_0_1_n_n_wf : DotDims.WF S262144x48 S48x256 S262144x256 [1] [0] [0] [1] [] []
  dot_S262144x256_S256x256_S262144x256_1_0_0_1_n_n_wf : DotDims.WF S262144x256 S256x256 S262144x256 [1] [0] [0] [1] [] []
  dot_S262144x256_S256x32_S262144x32_1_0_0_1_n_n_wf : DotDims.WF S262144x256 S256x32 S262144x32 [1] [0] [0] [1] [] []

variable [Facts₀]

def dot_S262144x48_S48x256_S262144x256_1_0_0_1_n_n : DotDims S262144x48 S48x256 S262144x256 where
  lhsContracting := [1]
  rhsContracting := [0]
  lhsNonContracting := [0]
  rhsNonContracting := [1]
  lhsBatch := []
  rhsBatch := []
  wf := dot_S262144x48_S48x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x32_S262144x32_1_0_0_1_n_n : DotDims S262144x256 S256x32 S262144x32 where
  lhsContracting := [1]
  rhsContracting := [0]
  lhsNonContracting := [0]
  rhsNonContracting := [1]
  lhsBatch := []
  rhsBatch := []
  wf := dot_S262144x256_S256x32_S262144x32_1_0_0_1_n_n_wf

class Facts : Prop extends Facts₀ where

variable [Facts]
-- ==== Proof.DeqSpec.lean ====
/-
  The layer as a function of ONE batch row.

  Every output row of the layer depends on the same row of the two batch inputs and on the weights only. This module
  states that row function over the extended reals, with no program in sight: an affine map of a row, the layer
  normalisation of a row of 256 features (mean, centred row, reciprocal standard deviation with the f32 word of 1e-5
  added to the variance, gain and offset), the rectifier, and their composition

      xinp  = LN (x W_inp + b_inp)
      z1    = LN (relu (z W_1 + b_1))
      inner = LN (xinp + (z1 W_2 + b_2))
      z_out = LN (relu (z1 + inner))
      dx    = z_out W_out + b_out.

  The float literals stay the f32 words the programs print (256.0, 1e-5 rounded to f32, 0.0): the same word is read
  on both sides and is never evaluated. Then the two whole-array results: row `i 0` of the row function, read at
  column `i 1`.
-/
import Idealize.ShloMosaic.PureOps.Ideal
import Idealize.ShloMosaic.Lib.ValueIdx

noncomputable section

open scoped BigOperators

namespace Cert.DeqSpec

open Idealize.ShloMosaic Idealize.ShloMosaic.ValueIdx

/-! ## Scalars -/

/-- The number of features, 256, as the f32 word both programs divide by. -/
def width : EReal := Ideal.ofBits .f32 0x43800000#32
/-- The variance offset: the f32 word nearest 1e-5. -/
def eps : EReal := Ideal.ofBits .f32 0x3727C5AC#32
/-- The rectifier's threshold: the f32 word of 0.0. -/
def zero : EReal := Ideal.ofBits .f32 0x00000000#32

/-! ## Row functions -/

/-- A row times a matrix plus a bias row: entry `j` is `(∑ c, x c * W c j) + b j`. -/
def affine {K N : ℕ} (x : Fin K → EReal) (W : Fin K → Fin N → EReal) (b : Fin N → EReal) : Fin N → EReal :=
  fun j => (∑ c : Fin K, x c * W c j) + b j

/-- A row minus its mean (the sum of its 256 entries divided by 256). -/
def centered (v : Fin 256 → EReal) : Fin 256 → EReal :=
  fun j => v j - Ideal.div (∑ k : Fin 256, v k) width

/-- The reciprocal standard deviation of a centred row: `rsqrt` of the mean of its squares plus `eps`. -/
def rstd (d : Fin 256 → EReal) : EReal :=
  Ideal.rsqrt (Ideal.div (∑ k : Fin 256, d k * d k) width + eps)

/-- A centred row scaled by a reciprocal standard deviation, then by the gain, plus the offset. -/
def scaled (d : Fin 256 → EReal) (r : EReal) (g b : Fin 256 → EReal) : Fin 256 → EReal :=
  fun j => d j * r * g j + b j

/-- Layer normalisation of a row with gain `g` and offset `b`. -/
def lnorm (v g b : Fin 256 → EReal) : Fin 256 → EReal :=
  scaled (centered v) (rstd (centered v)) g b

/-- The rectifier of a row. -/
def relu (v : Fin 256 → EReal) : Fin 256 → EReal := fun j => max (v j) zero

/-! ## The layer on one row -/

/-- `xinp = LN (x W_inp + b_inp)`. -/
def xinpRow (x : Fin 48 → EReal) (Wi : Fin 48 → Fin 256 → EReal) (bi gi li : Fin 256 → EReal) : Fin 256 → EReal :=
  lnorm (affine x Wi bi) gi li

/-- `z1 = LN (relu (z W_1 + b_1))`. -/
def z1Row (z : Fin 256 → EReal) (W1 : Fin 256 → Fin 256 → EReal) (b1 g1 l1 : Fin 256 → EReal) : Fin 256 → EReal :=
  lnorm (relu (affine z W1 b1)) g1 l1

/-- The row normalised next: `xinp + (z1 W_2 + b_2)`, the bias added to the product first. -/
def preInner (xi z1 : Fin 256 → EReal) (W2 : Fin 256 → Fin 256 → EReal) (b2 : Fin 256 → EReal) : Fin 256 → EReal :=
  fun j => xi j + affine z1 W2 b2 j

/-- `z_out = LN (relu (z1 + LN (xinp + (z1 W_2 + b_2))))`, from `xinp` and `z1`. -/
def zoutOf (xi z1 : Fin 256 → EReal) (W2 : Fin 256 → Fin 256 → EReal) (b2 g2 l2 g3 l3 : Fin 256 → EReal) :
    Fin 256 → EReal :=
  lnorm (relu (fun j => z1 j + lnorm (preInner xi z1 W2 b2) g2 l2 j)) g3 l3

/-- The new state's row from the two input rows and the weights. -/
def zoutRow (x : Fin 48 → EReal) (z : Fin 256 → EReal)
    (Wi : Fin 48 → Fin 256 → EReal) (bi gi li : Fin 256 → EReal)
    (W1 : Fin 256 → Fin 256 → EReal) (b1 g1 l1 : Fin 256 → EReal)
    (W2 : Fin 256 → Fin 256 → EReal) (b2 g2 l2 g3 l3 : Fin 256 → EReal) : Fin 256 → EReal :=
  zoutOf (xinpRow x Wi bi gi li) (z1Row z W1 b1 g1 l1) W2 b2 g2 l2 g3 l3

/-- The output projection's row: `z_out W_out + b_out`. -/
def dxRow (x : Fin 48 → EReal) (z : Fin 256 → EReal)
    (Wi : Fin 48 → Fin 256 → EReal) (bi gi li : Fin 256 → EReal)
    (W1 : Fin 256 → Fin 256 → EReal) (b1 g1 l1 : Fin 256 → EReal)
    (W2 : Fin 256 → Fin 256 → EReal) (b2 g2 l2 g3 l3 : Fin 256 → EReal)
    (Wo : Fin 256 → Fin 32 → EReal) (bo : Fin 32 → EReal) : Fin 32 → EReal :=
  affine (zoutRow x z Wi bi gi li W1 b1 g1 l1 W2 b2 g2 l2 g3 l3) Wo bo

/-! ## Arrays as rows -/

/-- Row `r` of a matrix. -/
def rowOf {a b : ℕ} (A : (⟨2, ![a, b]⟩ : Shape).Idx → EReal) (r : Fin a) : Fin b → EReal := fun c => A (ix2 r c)
/-- A matrix by its two coordinates. -/
def matOf {a b : ℕ} (A : (⟨2, ![a, b]⟩ : Shape).Idx → EReal) : Fin a → Fin b → EReal := fun c j => A (ix2 c j)
/-- A vector by its coordinate. -/
def vecOf {a : ℕ} (v : (⟨1, ![a]⟩ : Shape).Idx → EReal) : Fin a → EReal := fun j => v (ix1 j)

/-! ## The two results as whole arrays -/

/-- The new state: entry `(r, j)` is entry `j` of `zoutRow` of row `r` of `x` and of `z`. -/
def Zout (x : (⟨2, ![262144, 48]⟩ : Shape).Idx → EReal) (z : (⟨2, ![262144, 256]⟩ : Shape).Idx → EReal)
    (Wi : (⟨2, ![48, 256]⟩ : Shape).Idx → EReal) (bi gi li : (⟨1, ![256]⟩ : Shape).Idx → EReal)
    (W1 : (⟨2, ![256, 256]⟩ : Shape).Idx → EReal) (b1 g1 l1 : (⟨1, ![256]⟩ : Shape).Idx → EReal)
    (W2 : (⟨2, ![256, 256]⟩ : Shape).Idx → EReal) (b2 g2 l2 g3 l3 : (⟨1, ![256]⟩ : Shape).Idx → EReal) :
    (⟨2, ![262144, 256]⟩ : Shape).Idx → EReal :=
  fun i => zoutRow (rowOf x (i 0)) (rowOf z (i 0)) (matOf Wi) (vecOf bi) (vecOf gi) (vecOf li)
    (matOf W1) (vecOf b1) (vecOf g1) (vecOf l1) (matOf W2) (vecOf b2) (vecOf g2) (vecOf l2) (vecOf g3) (vecOf l3) (i 1)

/-- The projection before its final reshape: entry `(r, j)` is entry `j` of `dxRow` of row `r`. -/
def Dx (x : (⟨2, ![262144, 48]⟩ : Shape).Idx → EReal) (z : (⟨2, ![262144, 256]⟩ : Shape).Idx → EReal)
    (Wi : (⟨2, ![48, 256]⟩ : Shape).Idx → EReal) (bi gi li : (⟨1, ![256]⟩ : Shape).Idx → EReal)
    (W1 : (⟨2, ![256, 256]⟩ : Shape).Idx → EReal) (b1 g1 l1 : (⟨1, ![256]⟩ : Shape).Idx → EReal)
    (W2 : (⟨2, ![256, 256]⟩ : Shape).Idx → EReal) (b2 g2 l2 g3 l3 : (⟨1, ![256]⟩ : Shape).Idx → EReal)
    (Wo : (⟨2, ![256, 32]⟩ : Shape).Idx → EReal) (bo : (⟨1, ![32]⟩ : Shape).Idx → EReal) :
    (⟨2, ![262144, 32]⟩ : Shape).Idx → EReal :=
  fun i => dxRow (rowOf x (i 0)) (rowOf z (i 0)) (matOf Wi) (vecOf bi) (vecOf gi) (vecOf li)
    (matOf W1) (vecOf b1) (vecOf g1) (vecOf l1) (matOf W2) (vecOf b2) (vecOf g2) (vecOf l2) (vecOf g3) (vecOf l3)
    (matOf Wo) (vecOf bo) (i 1)

end Cert.DeqSpec

end
-- ==== Proof.KernelBlocks.lean ====
/-
  From blocks to arrays: the kernel's two result arrays as whole-array functions of the arguments.

  The grid has 128 points; point `t` stages rows `2048 t … 2048 t + 2047` of the two batch inputs and the whole of
  every weight, and writes back rows `2048 t … 2048 t + 2047` of the two results. The weights reach the call through
  host operations that change nothing at the ideal values: a change of float format (the identity) and a reshape of
  a vector of length `n` to a `[1, n]` row. So an input block read at `(p, q)` is the argument array read at row
  `2048 t + p`, a weight block is the weight, and a `[1, n]` block read at `(0, k)` is the vector at `k`. What point
  `t` writes back is then block `t` of the specification's arrays (`DeqSpec.Zout`, `DeqSpec.Dx`); the 128 blocks cover
  each result array, so the arrays end holding the specification. The projection's array is reshaped once more by the
  host after the call.
-/
import proofs.«132396_j15496242004634_2_alg».proof.Proof.Gen.KernelIdeal.Frame
import proofs.«132396_j15496242004634_2_alg».proof.Proof.DeqSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.DeqKernel.Blocks

open Cert.KernelIdeal Cert.KernelIdeal.Gen

variable (m : (ℓ : Loc nD τ sig) → Buf (Elt Ideal) ℓ) (ρ : Dev nD → PrngReg)

/-! ## The index maps -/

/-- The two batch inputs and the two results move with the grid point along the rows; every weight stays at block (0, 0). -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_18.index t (0 : Fin 2) = t.val ∧ win0_18.index t (1 : Fin 2) = 0)
    ∧ (win0_19.index t (0 : Fin 2) = t.val ∧ win0_19.index t (1 : Fin 2) = 0) :=
  (by decide +kernel : ∀ t : Fin grid0.N, _)

theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)
theorem idx_w13 : ∀ t : Fin cfg0.N, win0_13.index t (0 : Fin 2) = 0 ∧ win0_13.index t (1 : Fin 2) = 0 :=
  (by decide +kernel : ∀ t : Fin grid0.N, _)
theorem idx_w14 : ∀ t : Fin cfg0.N, win0_14.index t (0 : Fin 2) = 0 ∧ win0_14.index t (1 : Fin 2) = 0 :=
  (by decide +kernel : ∀ t : Fin grid0.N, _)
theorem idx_w15 : ∀ t : Fin cfg0.N, win0_15.index t (0 : Fin 2) = 0 ∧ win0_15.index t (1 : Fin 2) = 0 :=
  (by decide +kernel : ∀ t : Fin grid0.N, _)
theorem idx_w16 : ∀ t : Fin cfg0.N, win0_16.index t (0 : Fin 2) = 0 ∧ win0_16.index t (1 : Fin 2) = 0 :=
  (by decide +kernel : ∀ t : Fin grid0.N, _)
theorem idx_w17 : ∀ t : Fin cfg0.N, win0_17.index t (0 : Fin 2) = 0 ∧ win0_17.index t (1 : Fin 2) = 0 :=
  (by decide +kernel : ∀ t : Fin grid0.N, _)

/-- A grid point is below 128. -/
theorem t_lt (t : Fin cfg0.N) : t.val < 128 := lt_of_lt_of_eq t.isLt N_0

/-! ## The arrays the call finds: the host operations before it -/

/-- The 48x256 weight reaches the call through a change of float format: the same extended reals. -/
theorem V_main_v0 (c : Dev nD) :
    V m c main_v0 = (truncf (F := Ideal) .bf16 (m ((c : Thread nD τ).loc main_arg2) : FVec Ideal S48x256 .f32) bitsLt_bf16_f32 : FVec Ideal S48x256 .bf16) := by
  show StableHlo.after hostOps0 (fun b => m (c, b)) (Proc.devRef .tc main_v0) = _
  after_results
/-- The 256x256 weight reaches the call through a change of float format: the same extended reals. -/
theorem V_main_v1 (c : Dev nD) :
    V m c main_v1 = (truncf (F := Ideal) .bf16 (m ((c : Thread nD τ).loc main_arg6) : FVec Ideal S256x256 .f32) bitsLt_bf16_f32 : FVec Ideal S256x256 .bf16) := by
  show StableHlo.after hostOps0 (fun b => m (c, b)) (Proc.devRef .tc main_v1) = _
  after_results
/-- The 256x256 weight reaches the call through a change of float format: the same extended reals. -/
theorem V_main_v2 (c : Dev nD) :
    V m c main_v2 = (truncf (F := Ideal) .bf16 (m ((c : Thread nD τ).loc main_arg10) : FVec Ideal S256x256 .f32) bitsLt_bf16_f32 : FVec Ideal S256x256 .bf16) := by
  show StableHlo.after hostOps0 (fun b => m (c, b)) (Proc.devRef .tc main_v2) = _
  after_results
/-- The 256x32 weight reaches the call through a change of float format: the same extended reals. -/
theorem V_main_v3 (c : Dev nD) :
    V m c main_v3 = (truncf (F := Ideal) .bf16 (m ((c : Thread nD τ).loc main_arg16) : FVec Ideal S256x32 .f32) bitsLt_bf16_f32 : FVec Ideal S256x32 .bf16) := by
  show StableHlo.after hostOps0 (fun b => m (c, b)) (Proc.devRef .tc main_v3) = _
  after_results
theorem V_main_v4 (c : Dev nD) :
    (V m c main_v4 : S1x256.Idx → Elt Ideal .f32) = shapeCast S1x256 (m ((c : Thread nD τ).loc main_arg3) : S256.Idx → Elt Ideal .f32) shapeCasts_S256_S1x256 := by
  show StableHlo.after hostOps0 (fun b => m (c, b)) (Proc.devRef .tc main_v4) = _
  after_results; rfl
theorem V_main_v5 (c : Dev nD) :
    (V m c main_v5 : S1x256.Idx → Elt Ideal .f32) = shapeCast S1x256 (m ((c : Thread nD τ).loc main_arg4) : S256.Idx → Elt Ideal .f32) shapeCasts_S256_S1x256 := by
  show StableHlo.after hostOps0 (fun b => m (c, b)) (Proc.devRef .tc main_v5) = _
  after_results; rfl
theorem V_main_v6 (c : Dev nD) :
    (V m c main_v6 : S1x256.Idx → Elt Ideal .f32) = shapeCast S1x256 (m ((c : Thread nD τ).loc main_arg5) : S256.Idx → Elt Ideal .f32) shapeCasts_S256_S1x256 := by
  show StableHlo.after hostOps0 (fun b => m (c, b)) (Proc.devRef .tc main_v6) = _
  after_results; rfl
theorem V_main_v7 (c : Dev nD) :
    (V m c main_v7 : S1x256.Idx → Elt Ideal .f32) = shapeCast S1x256 (m ((c : Thread nD τ).loc main_arg7) : S256.Idx → Elt Ideal .f32) shapeCasts_S256_S1x256 := by
  show StableHlo.after hostOps0 (fun b => m (c, b)) (Proc.devRef .tc main_v7) = _
  after_results; rfl
theorem V_main_v8 (c : Dev nD) :
    (V m c main_v8 : S1x256.Idx → Elt Ideal .f32) = shapeCast S1x256 (m ((c : Thread nD τ).loc main_arg8) : S256.Idx → Elt Ideal .f32) shapeCasts_S256_S1x256 := by
  show StableHlo.after hostOps0 (fun b => m (c, b)) (Proc.devRef .tc main_v8) = _
  after_results; rfl
theorem V_main_v9 (c : Dev nD) :
    (V m c main_v9 : S1x256.Idx → Elt Ideal .f32) = shapeCast S1x256 (m ((c : Thread nD τ).loc main_arg9) : S256.Idx → Elt Ideal .f32) shapeCasts_S256_S1x256 := by
  show StableHlo.after hostOps0 (fun b => m (c, b)) (Proc.devRef .tc main_v9) = _
  after_results; rfl
theorem V_main_v10 (c : Dev nD) :
    (V m c main_v10 : S1x256.Idx → Elt Ideal .f32) = shapeCast S1x256 (m ((c : Thread nD τ).loc main_arg11) : S256.Idx → Elt Ideal .f32) shapeCasts_S256_S1x256 := by
  show StableHlo.after hostOps0 (fun b => m (c, b)) (Proc.devRef .tc main_v10) = _
  after_results; rfl
theorem V_main_v11 (c : Dev nD) :
    (V m c main_v11 : S1x256.Idx → Elt Ideal .f32) = shapeCast S1x256 (m ((c : Thread nD τ).loc main_arg12) : S256.Idx → Elt Ideal .f32) shapeCasts_S256_S1x256 := by
  show StableHlo.after hostOps0 (fun b => m (c, b)) (Proc.devRef .tc main_v11) = _
  after_results; rfl
theorem V_main_v12 (c : Dev nD) :
    (V m c main_v12 : S1x256.Idx → Elt Ideal .f32) = shapeCast S1x256 (m ((c : Thread nD τ).loc main_arg13) : S256.Idx → Elt Ideal .f32) shapeCasts_S256_S1x256 := by
  show StableHlo.after hostOps0 (fun b => m (c, b)) (Proc.devRef .tc main_v12) = _
  after_results; rfl
theorem V_main_v13 (c : Dev nD) :
    (V m c main_v13 : S1x256.Idx → Elt Ideal .f32) = shapeCast S1x256 (m ((c : Thread nD τ).loc main_arg14) : S256.Idx → Elt Ideal .f32) shapeCasts_S256_S1x256 := by
  show StableHlo.after hostOps0 (fun b => m (c, b)) (Proc.devRef .tc main_v13) = _
  after_results; rfl
theorem V_main_v14 (c : Dev nD) :
    (V m c main_v14 : S1x256.Idx → Elt Ideal .f32) = shapeCast S1x256 (m ((c : Thread nD τ).loc main_arg15) : S256.Idx → Elt Ideal .f32) shapeCasts_S256_S1x256 := by
  show StableHlo.after hostOps0 (fun b => m (c, b)) (Proc.devRef .tc main_v14) = _
  after_results; rfl
theorem V_main_v15 (c : Dev nD) :
    (V m c main_v15 : S1x32.Idx → Elt Ideal .f32) = shapeCast S1x32 (m ((c : Thread nD τ).loc main_arg17) : S32.Idx → Elt Ideal .f32) shapeCasts_S32_S1x32 := by
  show StableHlo.after hostOps0 (fun b => m (c, b)) (Proc.devRef .tc main_v15) = _
  after_results; rfl

/-! ## The windows' blocks read at an index -/

/-- Row `p` of point `t`'s block of `x` is row `2048 t + p` of `x`. -/
theorem iblk0_apply (c : Dev nD) (t : Fin cfg0.N) (p : Fin 2048) (q : Fin 48) (r : Fin 262144) (hr : r.val = t.val * 2048 + p.val) :
    (iblk m c 0 t : Vec Ideal S2048x48 .f32) (ix2 p q)
      = (m ((c : Thread nD τ).loc main_arg0) : S262144x48.Idx → Elt Ideal .f32) (ix2 r q) := by
  have hi := (idx_rows t).1
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = r.val; rw [hi.1, hr]; omega
  | ⟨1, _⟩ => show win0_0.index t (1 : Fin 2) * 48 + 1 * q.val = q.val; rw [hi.2]; omega

/-- Row `p` of point `t`'s block of `z` is row `2048 t + p` of `z`. -/
theorem iblk1_apply (c : Dev nD) (t : Fin cfg0.N) (p : Fin 2048) (q : Fin 256) (r : Fin 262144) (hr : r.val = t.val * 2048 + p.val) :
    (iblk m c 1 t : Vec Ideal S2048x256 .f32) (ix2 p q)
      = (m ((c : Thread nD τ).loc main_arg1) : S262144x256.Idx → Elt Ideal .f32) (ix2 r q) := by
  have hi := (idx_rows t).2.1
  unfold iblk
  rw [View.read_apply]
  show V m c main_arg1 _ = _
  rw [V_main_arg1]
  refine congrArg _ (funext fun a => Fin.ext ?_)
  match a with
  | ⟨0, _⟩ => show win0_1.index t (0 : Fin 2) * 2048 + 1 * p.val = r.val; rw [hi.1, hr]; omega
  | ⟨1, _⟩ => show win0_1.index t (1 : Fin 2) * 256 + 1 * q.val = q.val; rw [hi.2]; omega

/-- A weight's one block is the weight. -/
theorem iblk2_apply (c : Dev nD) (t : Fin cfg0.N) (a : Fin 48) (b : Fin 256) :
    (iblk m c 2 t : Vec Ideal S48x256 .bf16) (ix2 a b)
      = (m ((c : Thread nD τ).loc main_arg2) : S48x256.Idx → Elt Ideal .f32) (ix2 a b) := by
  have hi := idx_w2 t
  unfold iblk
  rw [View.read_apply]
  show V m c main_v0 _ = _
  rw [V_main_v0]
  show (m ((c : Thread nD τ).loc main_arg2) : S48x256.Idx → Elt Ideal .f32) _ = _
  refine congrArg _ (funext fun d => Fin.ext ?_)
  match d with
  | ⟨0, _⟩ => show win0_2.index t (0 : Fin 2) * 48 + 1 * a.val = a.val; rw [hi.1]; omega
  | ⟨1, _⟩ => show win0_2.index t (1 : Fin 2) * 256 + 1 * b.val = b.val; rw [hi.2]; omega

/-- A weight's one block is the weight. -/
theorem iblk6_apply (c : Dev nD) (t : Fin cfg0.N) (a : Fin 256) (b : Fin 256) :
    (iblk m c 6 t : Vec Ideal S256x256 .bf16) (ix2 a b)
      = (m ((c : Thread nD τ).loc main_arg6) : S256x256.Idx → Elt Ideal .f32) (ix2 a b) := by
  have hi := idx_w6 t
  unfold iblk
  rw [View.read_apply]
  show V m c main_v1 _ = _
  rw [V_main_v1]
  show (m ((c : Thread nD τ).loc main_arg6) : S256x256.Idx → Elt Ideal .f32) _ = _
  refine congrArg _ (funext fun d => Fin.ext ?_)
  match d with
  | ⟨0, _⟩ => show win0_6.index t (0 : Fin 2) * 256 + 1 * a.val = a.val; rw [hi.1]; omega
  | ⟨1, _⟩ => show win0_6.index t (1 : Fin 2) * 256 + 1 * b.val = b.val; rw [hi.2]; omega

/-- A weight's one block is the weight. -/
theorem iblk10_apply (c : Dev nD) (t : Fin cfg0.N) (a : Fin 256) (b : Fin 256) :
    (iblk m c 10 t : Vec Ideal S256x256 .bf16) (ix2 a b)
      = (m ((c : Thread nD τ).loc main_arg10) : S256x256.Idx → Elt Ideal .f32) (ix2 a b) := by
  have hi := idx_w10 t
  unfold iblk
  rw [View.read_apply]
  show V m c main_v2 _ = _
  rw [V_main_v2]
  show (m ((c : Thread nD τ).loc main_arg10) : S256x256.Idx → Elt Ideal .f32) _ = _
  refine congrArg _ (funext fun d => Fin.ext ?_)
  match d with
  | ⟨0, _⟩ => show win0_10.index t (0 : Fin 2) * 256 + 1 * a.val = a.val; rw [hi.1]; omega
  | ⟨1, _⟩ => show win0_10.index t (1 : Fin 2) * 256 + 1 * b.val = b.val; rw [hi.2]; omega

/-- A weight's one block is the weight. -/
theorem iblk16_apply (c : Dev nD) (t : Fin cfg0.N) (a : Fin 256) (b : Fin 32) :
    (iblk m c 16 t : Vec Ideal S256x32 .bf16) (ix2 a b)
      = (m ((c : Thread nD τ).loc main_arg16) : S256x32.Idx → Elt Ideal .f32) (ix2 a b) := by
  have hi := idx_w16 t
  unfold iblk
  rw [View.read_apply]
  show V m c main_v3 _ = _
  rw [V_main_v3]
  show (m ((c : Thread nD τ).loc main_arg16) : S256x32.Idx → Elt Ideal .f32) _ = _
  refine congrArg _ (funext fun d => Fin.ext ?_)
  match d with
  | ⟨0, _⟩ => show win0_16.index t (0 : Fin 2) * 256 + 1 * a.val = a.val; rw [hi.1]; omega
  | ⟨1, _⟩ => show win0_16.index t (1 : Fin 2) * 32 + 1 * b.val = b.val; rw [hi.2]; omega

/-- A vector's one `[1, 256]` block at `(0, k)` is the vector at `k`. -/
theorem iblk3_apply (c : Dev nD) (t : Fin cfg0.N) (k : Fin 256) :
    (iblk m c 3 t : Vec Ideal S1x256 .f32) (ix2 (0 : Fin 1) k)
      = (m ((c : Thread nD τ).loc main_arg3) : S256.Idx → Elt Ideal .f32) (ix1 k) := by
  have hi := idx_w3 t
  unfold iblk
  rw [View.read_apply]
  show V m c main_v4 _ = _
  rw [V_main_v4]
  refine (congrArg _ (funext fun d => Fin.ext ?_)).trans
    (shapeCast_a_1a_apply (m ((c : Thread nD τ).loc main_arg3) : S256.Idx → Elt Ideal .f32) shapeCasts_S256_S1x256 (0 : Fin 1) k)
  match d with
  | ⟨0, _⟩ => show win0_3.index t (0 : Fin 2) * 1 + 1 * 0 = 0; rw [hi.1]
  | ⟨1, _⟩ => show win0_3.index t (1 : Fin 2) * 256 + 1 * k.val = k.val; rw [hi.2]; omega

/-- A vector's one `[1, 256]` block at `(0, k)` is the vector at `k`. -/
theorem iblk4_apply (c : Dev nD) (t : Fin cfg0.N) (k : Fin 256) :
    (iblk m c 4 t : Vec Ideal S1x256 .f32) (ix2 (0 : Fin 1) k)
      = (m ((c : Thread nD τ).loc main_arg4) : S256.Idx → Elt Ideal .f32) (ix1 k) := by
  have hi := idx_w4 t
  unfold iblk
  rw [View.read_apply]
  show V m c main_v5 _ = _
  rw [V_main_v5]
  refine (congrArg _ (funext fun d => Fin.ext ?_)).trans
    (shapeCast_a_1a_apply (m ((c : Thread nD τ).loc main_arg4) : S256.Idx → Elt Ideal .f32) shapeCasts_S256_S1x256 (0 : Fin 1) k)
  match d with
  | ⟨0, _⟩ => show win0_4.index t (0 : Fin 2) * 1 + 1 * 0 = 0; rw [hi.1]
  | ⟨1, _⟩ => show win0_4.index t (1 : Fin 2) * 256 + 1 * k.val = k.val; rw [hi.2]; omega

/-- A vector's one `[1, 256]` block at `(0, k)` is the vector at `k`. -/
theorem iblk5_apply (c : Dev nD) (t : Fin cfg0.N) (k : Fin 256) :
    (iblk m c 5 t : Vec Ideal S1x256 .f32) (ix2 (0 : Fin 1) k)
      = (m ((c : Thread nD τ).loc main_arg5) : S256.Idx → Elt Ideal .f32) (ix1 k) := by
  have hi := idx_w5 t
  unfold iblk
  rw [View.read_apply]
  show V m c main_v6 _ = _
  rw [V_main_v6]
  refine (congrArg _ (funext fun d => Fin.ext ?_)).trans
    (shapeCast_a_1a_apply (m ((c : Thread nD τ).loc main_arg5) : S256.Idx → Elt Ideal .f32) shapeCasts_S256_S1x256 (0 : Fin 1) k)
  match d with
  | ⟨0, _⟩ => show win0_5.index t (0 : Fin 2) * 1 + 1 * 0 = 0; rw [hi.1]
  | ⟨1, _⟩ => show win0_5.index t (1 : Fin 2) * 256 + 1 * k.val = k.val; rw [hi.2]; omega

/-- A vector's one `[1, 256]` block at `(0, k)` is the vector at `k`. -/
theorem iblk7_apply (c : Dev nD) (t : Fin cfg0.N) (k : Fin 256) :
    (iblk m c 7 t : Vec Ideal S1x256 .f32) (ix2 (0 : Fin 1) k)
      = (m ((c : Thread nD τ).loc main_arg7) : S256.Idx → Elt Ideal .f32) (ix1 k) := by
  have hi := idx_w7 t
  unfold iblk
  rw [View.read_apply]
  show V m c main_v7 _ = _
  rw [V_main_v7]
  refine (congrArg _ (funext fun d => Fin.ext ?_)).trans
    (shapeCast_a_1a_apply (m ((c : Thread nD τ).loc main_arg7) : S256.Idx → Elt Ideal .f32) shapeCasts_S256_S1x256 (0 : Fin 1) k)
  match d with
  | ⟨0, _⟩ => show win0_7.index t (0 : Fin 2) * 1 + 1 * 0 = 0; rw [hi.1]
  | ⟨1, _⟩ => show win0_7.index t (1 : Fin 2) * 256 + 1 * k.val = k.val; rw [hi.2]; omega

/-- A vector's one `[1, 256]` block at `(0, k)` is the vector at `k`. -/
theorem iblk8_apply (c : Dev nD) (t : Fin cfg0.N) (k : Fin 256) :
    (iblk m c 8 t : Vec Ideal S1x256 .f32) (ix2 (0 : Fin 1) k)
      = (m ((c : Thread nD τ).loc main_arg8) : S256.Idx → Elt Ideal .f32) (ix1 k) := by
  have hi := idx_w8 t
  unfold iblk
  rw [View.read_apply]
  show V m c main_v8 _ = _
  rw [V_main_v8]
  refine (congrArg _ (funext fun d => Fin.ext ?_)).trans
    (shapeCast_a_1a_apply (m ((c : Thread nD τ).loc main_arg8) : S256.Idx → Elt Ideal .f32) shapeCasts_S256_S1x256 (0 : Fin 1) k)
  match d with
  | ⟨0, _⟩ => show win0_8.index t (0 : Fin 2) * 1 + 1 * 0 = 0; rw [hi.1]
  | ⟨1, _⟩ => show win0_8.index t (1 : Fin 2) * 256 + 1 * k.val = k.val; rw [hi.2]; omega

/-- A vector's one `[1, 256]` block at `(0, k)` is the vector at `k`. -/
theorem iblk9_apply (c : Dev nD) (t : Fin cfg0.N) (k : Fin 256) :
    (iblk m c 9 t : Vec Ideal S1x256 .f32) (ix2 (0 : Fin 1) k)
      = (m ((c : Thread nD τ).loc main_arg9) : S256.Idx → Elt Ideal .f32) (ix1 k) := by
  have hi := idx_w9 t
  unfold iblk
  rw [View.read_apply]
  show V m c main_v9 _ = _
  rw [V_main_v9]
  refine (congrArg _ (funext fun d => Fin.ext ?_)).trans
    (shapeCast_a_1a_apply (m ((c : Thread nD τ).loc main_arg9) : S256.Idx → Elt Ideal .f32) shapeCasts_S256_S1x256 (0 : Fin 1) k)
  match d with
  | ⟨0, _⟩ => show win0_9.index t (0 : Fin 2) * 1 + 1 * 0 = 0; rw [hi.1]
  | ⟨1, _⟩ => show win0_9.index t (1 : Fin 2) * 256 + 1 * k.val = k.val; rw [hi.2]; omega

/-- A vector's one `[1, 256]` block at `(0, k)` is the vector at `k`. -/
theorem iblk11_apply (c : Dev nD) (t : Fin cfg0.N) (k : Fin 256) :
    (iblk m c 11 t : Vec Ideal S1x256 .f32) (ix2 (0 : Fin 1) k)
      = (m ((c : Thread nD τ).loc main_arg11) : S256.Idx → Elt Ideal .f32) (ix1 k) := by
  have hi := idx_w11 t
  unfold iblk
  rw [View.read_apply]
  show V m c main_v10 _ = _
  rw [V_main_v10]
  refine (congrArg _ (funext fun d => Fin.ext ?_)).trans
    (shapeCast_a_1a_apply (m ((c : Thread nD τ).loc main_arg11) : S256.Idx → Elt Ideal .f32) shapeCasts_S256_S1x256 (0 : Fin 1) k)
  match d with
  | ⟨0, _⟩ => show win0_11.index t (0 : Fin 2) * 1 + 1 * 0 = 0; rw [hi.1]
  | ⟨1, _⟩ => show win0_11.index t (1 : Fin 2) * 256 + 1 * k.val = k.val; rw [hi.2]; omega

/-- A vector's one `[1, 256]` block at `(0, k)` is the vector at `k`. -/
theorem iblk12_apply (c : Dev nD) (t : Fin cfg0.N) (k : Fin 256) :
    (iblk m c 12 t : Vec Ideal S1x256 .f32) (ix2 (0 : Fin 1) k)
      = (m ((c : Thread nD τ).loc main_arg12) : S256.Idx → Elt Ideal .f32) (ix1 k) := by
  have hi := idx_w12 t
  unfold iblk
  rw [View.read_apply]
  show V m c main_v11 _ = _
  rw [V_main_v11]
  refine (congrArg _ (funext fun d => Fin.ext ?_)).trans
    (shapeCast_a_1a_apply (m ((c : Thread nD τ).loc main_arg12) : S256.Idx → Elt Ideal .f32) shapeCasts_S256_S1x256 (0 : Fin 1) k)
  match d with
  | ⟨0, _⟩ => show win0_12.index t (0 : Fin 2) * 1 + 1 * 0 = 0; rw [hi.1]
  | ⟨1, _⟩ => show win0_12.index t (1 : Fin 2) * 256 + 1 * k.val = k.val; rw [hi.2]; omega

/-- A vector's one `[1, 256]` block at `(0, k)` is the vector at `k`. -/
theorem iblk13_apply (c : Dev nD) (t : Fin cfg0.N) (k : Fin 256) :
    (iblk m c 13 t : Vec Ideal S1x256 .f32) (ix2 (0 : Fin 1) k)
      = (m ((c : Thread nD τ).loc main_arg13) : S256.Idx → Elt Ideal .f32) (ix1 k) := by
  have hi := idx_w13 t
  unfold iblk
  rw [View.read_apply]
  show V m c main_v12 _ = _
  rw [V_main_v12]
  refine (congrArg _ (funext fun d => Fin.ext ?_)).trans
    (shapeCast_a_1a_apply (m ((c : Thread nD τ).loc main_arg13) : S256.Idx → Elt Ideal .f32) shapeCasts_S256_S1x256 (0 : Fin 1) k)
  match d with
  | ⟨0, _⟩ => show win0_13.index t (0 : Fin 2) * 1 + 1 * 0 = 0; rw [hi.1]
  | ⟨1, _⟩ => show win0_13.index t (1 : Fin 2) * 256 + 1 * k.val = k.val; rw [hi.2]; omega

/-- A vector's one `[1, 256]` block at `(0, k)` is the vector at `k`. -/
theorem iblk14_apply (c : Dev nD) (t : Fin cfg0.N) (k : Fin 256) :
    (iblk m c 14 t : Vec Ideal S1x256 .f32) (ix2 (0 : Fin 1) k)
      = (m ((c : Thread nD τ).loc main_arg14) : S256.Idx → Elt Ideal .f32) (ix1 k) := by
  have hi := idx_w14 t
  unfold iblk
  rw [View.read_apply]
  show V m c main_v13 _ = _
  rw [V_main_v13]
  refine (congrArg _ (funext fun d => Fin.ext ?_)).trans
    (shapeCast_a_1a_apply (m ((c : Thread nD τ).loc main_arg14) : S256.Idx → Elt Ideal .f32) shapeCasts_S256_S1x256 (0 : Fin 1) k)
  match d with
  | ⟨0, _⟩ => show win0_14.index t (0 : Fin 2) * 1 + 1 * 0 = 0; rw [hi.1]
  | ⟨1, _⟩ => show win0_14.index t (1 : Fin 2) * 256 + 1 * k.val = k.val; rw [hi.2]; omega

/-- A vector's one `[1, 256]` block at `(0, k)` is the vector at `k`. -/
theorem iblk15_apply (c : Dev nD) (t : Fin cfg0.N) (k : Fin 256) :
    (iblk m c 15 t : Vec Ideal S1x256 .f32) (ix2 (0 : Fin 1) k)
      = (m ((c : Thread nD τ).loc main_arg15) : S256.Idx → Elt Ideal .f32) (ix1 k) := by
  have hi := idx_w15 t
  unfold iblk
  rw [View.read_apply]
  show V m c main_v14 _ = _
  rw [V_main_v14]
  refine (congrArg _ (funext fun d => Fin.ext ?_)).trans
    (shapeCast_a_1a_apply (m ((c : Thread nD τ).loc main_arg15) : S256.Idx → Elt Ideal .f32) shapeCasts_S256_S1x256 (0 : Fin 1) k)
  match d with
  | ⟨0, _⟩ => show win0_15.index t (0 : Fin 2) * 1 + 1 * 0 = 0; rw [hi.1]
  | ⟨1, _⟩ => show win0_15.index t (1 : Fin 2) * 256 + 1 * k.val = k.val; rw [hi.2]; omega

/-- A vector's one `[1, 32]` block at `(0, k)` is the vector at `k`. -/
theorem iblk17_apply (c : Dev nD) (t : Fin cfg0.N) (k : Fin 32) :
    (iblk m c 17 t : Vec Ideal S1x32 .f32) (ix2 (0 : Fin 1) k)
      = (m ((c : Thread nD τ).loc main_arg17) : S32.Idx → Elt Ideal .f32) (ix1 k) := by
  have hi := idx_w17 t
  unfold iblk
  rw [View.read_apply]
  show V m c main_v15 _ = _
  rw [V_main_v15]
  refine (congrArg _ (funext fun d => Fin.ext ?_)).trans
    (shapeCast_a_1a_apply (m ((c : Thread nD τ).loc main_arg17) : S32.Idx → Elt Ideal .f32) shapeCasts_S32_S1x32 (0 : Fin 1) k)
  match d with
  | ⟨0, _⟩ => show win0_17.index t (0 : Fin 2) * 1 + 1 * 0 = 0; rw [hi.1]
  | ⟨1, _⟩ => show win0_17.index t (1 : Fin 2) * 32 + 1 * k.val = k.val; rw [hi.2]; omega

end Cert.DeqKernel.Blocks

end
-- ==== Proof.LibKeepdims.lean ====
/-
  Column ("keepdims") layout forms, one-axis reductions of a matrix and the one-hot mask, read at an index.

  A reduction that keeps its axis as a unit axis leaves a column `[a, 1]`; the next operation broadcasts the column along
  the rows' entries. Lib/ValueLayout.lean has the leading-unit-axis casts and the row broadcast `[1, b] → [a, b]`; here are
  the column cast `[a] → [a, 1]` and the column broadcast `[a, 1] → [a, b]`, in the same style.

  At the ideal values a `vector.multi_reduction` of a matrix over one of its two axes is the sum (or the fold of `max`)
  over that axis's coordinates with the other coordinate fixed: PureOps/Ideal/Laws.lean's one-axis readings with the
  inserted index written by coordinates.

  The one-hot mask `(iota along d == w)` converted to a float is `1` where the coordinate's word is `w` and `0` elsewhere; a
  sum of products with it keeps the one selected term, whatever the other factor is (on the extended reals `x * 0 = 0` and
  `x * 1 = x` for every `x`, infinite or not).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibKeepdims

open Idealize.ShloMosaic Idealize.ShloMosaic.ValueIdx

/-! ## The column cast and the column broadcast -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix reduced over one axis, at the ideal values -/

section Reduce
variable {φ : FTy}

/-- The sum over the entries of each row: `[a, b]` reduced over axis 1, read at row `i`. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- The sum over the rows of each column: `[a, b]` reduced over axis 0, read at column `k`. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) :=
  (Ideal.multiReduction_add_single src acc h hφ hacc (ix1 k)).trans
    (Finset.sum_congr rfl fun i _ => congrArg src (funext fun c => Fin.ext (by
      match c with
      | ⟨0, _⟩ => rfl
      | ⟨1, _⟩ => rfl)))

/-- The maximum over the entries of each row, from the accumulator's value: `[a, b]` reduced by `max` over axis 1. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg ((Finset.univ : Finset (Fin b)).fold max (Ideal.ofBits φ acc)) (funext fun k => congrArg src (funext fun c => Fin.ext (by
      match c with
      | ⟨0, _⟩ => rfl
      | ⟨1, _⟩ => rfl))))

end Reduce

/-! ## The one-hot mask -/

section Mask

/-- Two naturals below `2 ^ 32` have the same 32-bit word exactly when they are equal. -/
theorem ofNat32_eq_iff {n b : ℕ} (hn : n < 2 ^ 32) (hb : b < 2 ^ 32) : BitVec.ofNat 32 n = BitVec.ofNat 32 b ↔ n = b := by
  constructor
  · intro e
    have := congrArg BitVec.toNat e
    rwa [BitVec.toNat_ofNat, BitVec.toNat_ofNat, Nat.mod_eq_of_lt hn, Nat.mod_eq_of_lt hb] at this
  · intro e; rw [e]

/-- A comparison bit, widened to a word and read as a signed integer at the ideal values, is `1` or `0`. -/
theorem sitofp_extui_cmpi_eq (x y : BitVec 32) (h : 1 < 32) :
    (FloatOps.sitofp (F := Ideal) .f32 ((IntOp.cmpi .eq x y).setWidth 32) : EReal) = if x = y then 1 else 0 := by
  show (((((BitVec.ofBool (x == y)).setWidth 32).toInt : ℝ)) : EReal) = _
  by_cases e : x = y
  · have h1 : ((BitVec.ofBool true).setWidth 32).toInt = 1 := by decide
    rw [if_pos e, beq_iff_eq.2 e, h1, Int.cast_one, EReal.coe_one]
  · have h0 : ((BitVec.ofBool false).setWidth 32).toInt = 0 := by decide
    rw [if_neg e, beq_eq_false_iff_ne.2 e, h0, Int.cast_zero, EReal.coe_zero]

/-- The mask `(iota along d == w)` as a float: `1` where the coordinate's word is `w`, `0` elsewhere. -/
theorem mask_apply (s : Shape) (d : Fin s.rank) (h : s.Iotas .tc 32 [d]) (w : BitVec 32) (hlt : 1 < 32) (i : s.Idx) :
    (sitofp .f32 (extui 32 (cmpi .eq (iota .tc s 32 [d] h) (broadcast s w)) hlt) : FVec Ideal s .f32) i
      = if BitVec.ofNat 32 (i d).val = w then (1 : EReal) else 0 := by
  rw [sitofp_apply, extui_apply]
  show (FloatOps.sitofp (F := Ideal) .f32 ((IntOp.cmpi .eq (iota .tc s 32 [d] h i) w).setWidth 32) : EReal) = _
  rw [iota_single_apply, sitofp_extui_cmpi_eq _ _ hlt]

/-- The same against the word of a natural `b`: the mask picks the coordinate `b`. -/
theorem mask_ofNat_apply (s : Shape) (d : Fin s.rank) (h : s.Iotas .tc 32 [d]) (b : ℕ) (hlt : 1 < 32) (i : s.Idx)
    (hi : (i d).val < 2 ^ 32) (hb : b < 2 ^ 32) :
    (sitofp .f32 (extui 32 (cmpi .eq (iota .tc s 32 [d] h) (broadcast s (BitVec.ofNat 32 b))) hlt) : FVec Ideal s .f32) i
      = if (i d).val = b then (1 : EReal) else 0 := by
  rw [mask_apply]
  by_cases e : (i d).val = b
  · rw [if_pos e, if_pos ((ofNat32_eq_iff hi hb).2 e)]
  · rw [if_neg e, if_neg (fun e' => e ((ofNat32_eq_iff hi hb).1 e'))]

/-- A sum of products with a one-hot factor keeps the selected term. No finiteness is asked: on the extended reals
    `x * 0 = 0` and `x * 1 = x` for every `x`. -/
theorem sum_mul_onehot {n : ℕ} (f : Fin n → EReal) (b : Fin n) :
    ∑ l : Fin n, f l * (if l.val = b.val then (1 : EReal) else 0) = f b := by
  rw [Finset.sum_eq_single b]
  · rw [if_pos rfl, mul_one]
  · intro l _ hl
    rw [if_neg (fun e => hl (Fin.ext e)), mul_zero]
  · intro hb; exact absurd (Finset.mem_univ b) hb

end Mask

end Cert.LibKeepdims

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.KernelOps.lean ====
/-
  The kernel's block operations, read at one entry.

  The kernel body works on blocks of 2048 rows. Its arithmetic is a handful of whole-block operations, each of which acts
  on every row separately: the centring of a block (each row minus its mean, the mean being the row's sum over the 256
  features divided by the f32 word of 256), the reciprocal standard deviation of a centred block (a column of 2048
  entries), the scaling of a centred block by such a column, a gain row and an offset row, the addition of a bias row,
  the rectifier, and the three matrix products into the zero accumulator. Each is defined here exactly as the printed
  sequence of vector operations and is then read at the entry of row `p` and column `j`, where it is the matching row
  function of the specification applied to row `p` of its block operands.
-/
import proofs.«132396_j15496242004634_2_alg».proof.Proof.Gen.KernelIdeal
import proofs.«132396_j15496242004634_2_alg».proof.Proof.DeqSpec
import proofs.«132396_j15496242004634_2_alg».proof.Proof.LibKeepdims
import proofs.«132396_j15496242004634_2_alg».proof.Proof.LibMatmulIx
import Idealize.ShloMosaic.Lib.ValueIdx
import Idealize.ShloMosaic.Lib.ValueLayout

noncomputable section

open scoped BigOperators

namespace Cert.DeqKernel

open Cert.KernelIdeal Cert.KernelIdeal.Gen Idealize.ShloMosaic Idealize.ShloMosaic.ValueIdx

/-! ## The block operations, as the kernel prints them -/

/-- Each row of a block minus its mean: the row sums, as a column, divided by the word of 256, spread back over the
    columns and subtracted. -/
def kCtr (v : FVec Ideal S2048x256 .f32) : FVec Ideal S2048x256 .f32 :=
  subf v (broadcastTo S2048x256
    (divf (shapeCast S2048x1 (multiReduction .add [1] S2048 v 0x00000000#32 reduces_S2048x256_S2048 (.inl rfl) rfl)
        shapeCasts_S2048_S2048x1)
      (broadcast S2048x1 (Scalar.ofBits (F := Ideal) .f32 0x43800000#32)))
    broadcasts_S2048x1_S2048x256)

/-- The reciprocal standard deviation of each row of a centred block, as a column: `rsqrt` of the mean of the squares
    plus the variance offset. -/
def kRstd (d : FVec Ideal S2048x256 .f32) : FVec Ideal S2048x1 .f32 :=
  rsqrt (addf
    (divf (shapeCast S2048x1 (multiReduction .add [1] S2048 (mulf d d) 0x00000000#32 reduces_S2048x256_S2048 (.inl rfl) rfl)
        shapeCasts_S2048_S2048x1)
      (broadcast S2048x1 (Scalar.ofBits (F := Ideal) .f32 0x43800000#32)))
    (broadcast S2048x1 (Scalar.ofBits (F := Ideal) .f32 0x3727C5AC#32)))

/-- A centred block times a column (one factor per row), times a gain row, plus an offset row. -/
def kScale (d : FVec Ideal S2048x256 .f32) (r : FVec Ideal S2048x1 .f32) (g b : FVec Ideal S1x256 .f32) :
    FVec Ideal S2048x256 .f32 :=
  addf (mulf (mulf d (broadcastTo S2048x256 r broadcasts_S2048x1_S2048x256))
      (broadcastTo S2048x256 g broadcasts_S1x256_S2048x256))
    (broadcastTo S2048x256 b broadcasts_S1x256_S2048x256)

/-- The layer normalisation of every row of a block. -/
def kLN (v : FVec Ideal S2048x256 .f32) (g b : FVec Ideal S1x256 .f32) : FVec Ideal S2048x256 .f32 :=
  kScale (kCtr v) (kRstd (kCtr v)) g b

/-- A block plus one row added to each of its rows. -/
def kBias (m : FVec Ideal S2048x256 .f32) (b : FVec Ideal S1x256 .f32) : FVec Ideal S2048x256 .f32 :=
  addf m (broadcastTo S2048x256 b broadcasts_S1x256_S2048x256)

/-- The rectifier of a block: the maximum with the word of 0.0, entry by entry. -/
def kRelu (v : FVec Ideal S2048x256 .f32) : FVec Ideal S2048x256 .f32 :=
  maximumf v (broadcast S2048x256 (Scalar.ofBits (F := Ideal) .f32 0x00000000#32))

/-! ## Each of them at the entry `(p, j)` -/

/-- The column of row sums at row `p`: the sum of the 256 entries of row `p`. -/
theorem rowSum_apply (v : FVec Ideal S2048x256 .f32) (p : Fin 2048) :
    shapeCast S2048x1 (multiReduction .add [1] S2048 v 0x00000000#32 reduces_S2048x256_S2048 (.inl rfl) rfl)
        shapeCasts_S2048_S2048x1 (ix2 p (0 : Fin 1))
      = ∑ k : Fin 256, v (ix2 p k) :=
  (LibKeepdims.shapeCast_a_a1_apply _ shapeCasts_S2048_S2048x1 p (0 : Fin 1)).trans
    (LibKeepdims.multiReduction_add_axis1 v 0x00000000#32 reduces_S2048x256_S2048 (.inl rfl) rfl p)

/-- The centred block's entry is the centred row's. -/
theorem kCtr_apply (v : FVec Ideal S2048x256 .f32) (p : Fin 2048) (j : Fin 256) :
    kCtr v (ix2 p j) = DeqSpec.centered (fun k => v (ix2 p k)) j := by
  show v (ix2 p j) - broadcastTo S2048x256 _ broadcasts_S2048x1_S2048x256 (ix2 p j) = _
  rw [LibKeepdims.broadcastTo_a1_ab_apply]
  exact congrArg (fun s => v (ix2 p j) - Ideal.div s DeqSpec.width) (rowSum_apply v p)

/-- The column of reciprocal standard deviations at row `p` is that of row `p`. -/
theorem kRstd_apply (d : FVec Ideal S2048x256 .f32) (p : Fin 2048) :
    kRstd d (ix2 p (0 : Fin 1)) = DeqSpec.rstd (fun k => d (ix2 p k)) :=
  congrArg (fun s => Ideal.rsqrt (Ideal.div s DeqSpec.width + DeqSpec.eps)) (rowSum_apply (mulf d d) p)

/-- The scaled block's entry is the scaled row's. -/
theorem kScale_apply (d : FVec Ideal S2048x256 .f32) (r : FVec Ideal S2048x1 .f32) (g b : FVec Ideal S1x256 .f32)
    (p : Fin 2048) (j : Fin 256) :
    kScale d r g b (ix2 p j)
      = DeqSpec.scaled (fun k => d (ix2 p k)) (r (ix2 p (0 : Fin 1))) (fun k => g (ix2 (0 : Fin 1) k))
          (fun k => b (ix2 (0 : Fin 1) k)) j := by
  show d (ix2 p j) * broadcastTo S2048x256 r broadcasts_S2048x1_S2048x256 (ix2 p j)
      * broadcastTo S2048x256 g broadcasts_S1x256_S2048x256 (ix2 p j)
      + broadcastTo S2048x256 b broadcasts_S1x256_S2048x256 (ix2 p j) = _
  rw [LibKeepdims.broadcastTo_a1_ab_apply, broadcastTo_1b_ab_apply, broadcastTo_1b_ab_apply]
  rfl

/-- The normalised block's entry is the normalised row's. -/
theorem kLN_apply (v : FVec Ideal S2048x256 .f32) (g b : FVec Ideal S1x256 .f32) (p : Fin 2048) (j : Fin 256) :
    kLN v g b (ix2 p j)
      = DeqSpec.lnorm (fun k => v (ix2 p k)) (fun k => g (ix2 (0 : Fin 1) k)) (fun k => b (ix2 (0 : Fin 1) k)) j := by
  have hc : (fun k => kCtr v (ix2 p k)) = DeqSpec.centered (fun k => v (ix2 p k)) :=
    funext fun k => kCtr_apply v p k
  show kScale (kCtr v) (kRstd (kCtr v)) g b (ix2 p j) = _
  rw [kScale_apply, kRstd_apply, hc]
  rfl

/-- A block plus a bias row, at an entry. -/
theorem kBias_apply (m : FVec Ideal S2048x256 .f32) (b : FVec Ideal S1x256 .f32) (p : Fin 2048) (j : Fin 256) :
    kBias m b (ix2 p j) = m (ix2 p j) + b (ix2 (0 : Fin 1) j) := by
  show m (ix2 p j) + broadcastTo S2048x256 b broadcasts_S1x256_S2048x256 (ix2 p j) = _
  rw [broadcastTo_1b_ab_apply]

/-- The rectified block's entry is the rectified row's. -/
theorem kRelu_apply (v : FVec Ideal S2048x256 .f32) (p : Fin 2048) (j : Fin 256) :
    kRelu v (ix2 p j) = DeqSpec.relu (fun k => v (ix2 p k)) j := rfl

/-! ## The three matrix products into the zero accumulator -/

/-- The input projection's product, at an entry. -/
theorem matmul48_apply (A : FVec Ideal S2048x48 .bf16) (B : FVec Ideal S48x256 .bf16) (p : Fin 2048) (j : Fin 256) :
    matmul dot_S2048x48_S48x256_S2048x256_1_0_0_1_n_n none A B (constant (F := Ideal) S2048x256 .f32 0x00000000#32) (ix2 p j)
      = ∑ c : Fin 48, A (ix2 p c) * B (ix2 c j) :=
  LibMatmulIx.matmul_zero_apply _ none A B p j

/-- A product with a 256 × 256 weight matrix, at an entry. -/
theorem matmul256_apply (A : FVec Ideal S2048x256 .bf16) (B : FVec Ideal S256x256 .bf16) (p : Fin 2048) (j : Fin 256) :
    matmul dot_S2048x256_S256x256_S2048x256_1_0_0_1_n_n none A B (constant (F := Ideal) S2048x256 .f32 0x00000000#32) (ix2 p j)
      = ∑ c : Fin 256, A (ix2 p c) * B (ix2 c j) :=
  LibMatmulIx.matmul_zero_apply _ none A B p j

/-- The output projection's product, at an entry. -/
theorem matmul32_apply (A : FVec Ideal S2048x256 .bf16) (B : FVec Ideal S256x32 .bf16) (p : Fin 2048) (j : Fin 32) :
    matmul dot_S2048x256_S256x32_S2048x32_1_0_0_1_n_n none A B (constant (F := Ideal) S2048x32 .f32 0x00000000#32) (ix2 p j)
      = ∑ c : Fin 256, A (ix2 p c) * B (ix2 c j) :=
  LibMatmulIx.matmul_zero_apply _ none A B p j

end Cert.DeqKernel

end
-- ==== Proof.KernelBody.lean ====
/-
  The kernel body, read at one entry of each of its two output blocks.

  The body's arithmetic is a tree of eleven pure terms over the blocks it loads. Each term is a composition of the block
  operations read in the module before this one (centring, reciprocal standard deviation, scaling, bias, rectifier,
  matrix product), so each term at the entry of row `p` and column `j` is a row function of the specification applied to
  row `p` of the term's block operands and to the weight matrices and the gain, offset and bias rows. Chaining the eleven
  readings gives the two stored blocks: the new state's block at `(p, j)` is entry `j` of the specification's row
  function of row `p` of the two batch blocks, and the projection's block at `(p, j)` is entry `j` of the projected row.
-/
import proofs.«132396_j15496242004634_2_alg».proof.Proof.Gen.KernelIdeal.Frame
import proofs.«132396_j15496242004634_2_alg».proof.Proof.KernelOps
import Idealize.ShloMosaic.Lib.Pipeline.Value

noncomputable section

open scoped BigOperators

namespace Cert.DeqKernel

open Cert.KernelIdeal Cert.KernelIdeal.Gen Idealize.ShloMosaic Idealize.ShloMosaic.ValueIdx

/-! ## The eleven terms as compositions of the block operations -/

theorem pay3_eq (v0 : Vec Ideal S2048x48 .f32) (v3 : Vec Ideal S48x256 .bf16) (v6 v10 v12 : Vec Ideal S1x256 .f32) :
    k0_pay3 (F := Ideal) v0 v3 v6 v10 v12
      = kLN (kBias (matmul dot_S2048x48_S48x256_S2048x256_1_0_0_1_n_n none (truncf .bf16 v0 bitsLt_bf16_f32)
            (shapeCast S48x256 v3 shapeCasts_S48x256_S48x256 : FVec Ideal S48x256 .bf16) (constant S2048x256 .f32 0x00000000#32))
          (shapeCast S1x256 v6 shapeCasts_S1x256_S1x256))
        (shapeCast S1x256 v10 shapeCasts_S1x256_S1x256) (shapeCast S1x256 v12 shapeCasts_S1x256_S1x256) := rfl

theorem pay4_eq (v1 : Vec Ideal S2048x256 .f32) (v35 : Vec Ideal S256x256 .bf16) :
    k0_pay4 (F := Ideal) v1 v35
      = matmul dot_S2048x256_S256x256_S2048x256_1_0_0_1_n_n none (truncf .bf16 v1 bitsLt_bf16_f32)
          (shapeCast S256x256 v35 shapeCasts_S256x256_S256x256 : FVec Ideal S256x256 .bf16) (constant S2048x256 .f32 0x00000000#32) := rfl

theorem pay5_eq (v37 : FVec Ideal S2048x256 .f32) (v38 v44 v46 : Vec Ideal S1x256 .f32) :
    k0_pay5 (F := Ideal) v37 v38 v44 v46
      = kLN (kRelu (kBias v37 (shapeCast S1x256 v38 shapeCasts_S1x256_S1x256)))
          (shapeCast S1x256 v44 shapeCasts_S1x256_S1x256) (shapeCast S1x256 v46 shapeCasts_S1x256_S1x256) := rfl

theorem pay6_eq (v33 v37 : FVec Ideal S2048x256 .f32) (v38 v44 v46 : Vec Ideal S1x256 .f32)
    (v69 : Vec Ideal S256x256 .bf16) (v72 : Vec Ideal S1x256 .f32) :
    k0_pay6 (F := Ideal) v33 v37 v38 v44 v46 v69 v72
      = addf v33 (kBias (matmul dot_S2048x256_S256x256_S2048x256_1_0_0_1_n_n none
            (truncf .bf16 (k0_pay5 v37 v38 v44 v46) bitsLt_bf16_f32)
            (shapeCast S256x256 v69 shapeCasts_S256x256_S256x256 : FVec Ideal S256x256 .bf16) (constant S2048x256 .f32 0x00000000#32))
          (shapeCast S1x256 v72 shapeCasts_S1x256_S1x256)) := rfl

theorem pay10_eq (v67 v76 : FVec Ideal S2048x256 .f32) (v78 : FVec Ideal S1x256 .f32) (v79 : Vec Ideal S1x256 .f32) :
    k0_pay10 (F := Ideal) v67 v76 v78 v79
      = kCtr (kRelu (addf v67 (kLN v76 v78 (shapeCast S1x256 v79 shapeCasts_S1x256_S1x256)))) := rfl

theorem pay11_eq (v67 v76 : FVec Ideal S2048x256 .f32) (v78 : FVec Ideal S1x256 .f32) (v79 : Vec Ideal S1x256 .f32) :
    k0_pay11 (F := Ideal) v67 v76 v78 v79 = kRstd (k0_pay10 v67 v76 v78 v79) := rfl

theorem pay1_eq (v105 v107 : FVec Ideal S1x256 .f32) (v113 : FVec Ideal S2048x256 .f32) (v121 : FVec Ideal S2048x1 .f32) :
    k0_pay1 (F := Ideal) v105 v107 v113 v121 = kScale v113 v121 v105 v107 := rfl

/-! ## The eleven terms at an entry -/

/-- The cast of a row to its own shape changes nothing. -/
theorem pay7_eq (v : Vec Ideal S1x256 .f32) : k0_pay7 (F := Ideal) v = v := shapeCast_self v _
theorem pay8_eq (v : Vec Ideal S1x256 .f32) : k0_pay8 (F := Ideal) v = v := shapeCast_self v _
theorem pay9_eq (v : Vec Ideal S1x256 .f32) : k0_pay9 (F := Ideal) v = v := shapeCast_self v _

/-- `xinp`: the normalised input projection. -/
theorem pay3_apply (v0 : Vec Ideal S2048x48 .f32) (v3 : Vec Ideal S48x256 .bf16) (v6 v10 v12 : Vec Ideal S1x256 .f32)
    (p : Fin 2048) (j : Fin 256) :
    k0_pay3 (F := Ideal) v0 v3 v6 v10 v12 (ix2 p j)
      = DeqSpec.xinpRow (fun c => v0 (ix2 p c)) (fun c k => v3 (ix2 c k)) (fun k => v6 (ix2 (0 : Fin 1) k))
          (fun k => v10 (ix2 (0 : Fin 1) k)) (fun k => v12 (ix2 (0 : Fin 1) k)) j := by
  rw [pay3_eq, shapeCast_self, shapeCast_self, shapeCast_self, shapeCast_self, kLN_apply]
  simp only [kBias_apply, matmul48_apply]
  rfl

/-- The first product of the state's branch. -/
theorem pay4_apply (v1 : Vec Ideal S2048x256 .f32) (v35 : Vec Ideal S256x256 .bf16) (p : Fin 2048) (j : Fin 256) :
    k0_pay4 (F := Ideal) v1 v35 (ix2 p j) = ∑ c : Fin 256, v1 (ix2 p c) * v35 (ix2 c j) := by
  rw [pay4_eq, shapeCast_self, matmul256_apply]
  rfl

/-- `z1` from the first product: bias, rectifier, normalisation. -/
theorem pay5_apply (v37 : FVec Ideal S2048x256 .f32) (v38 v44 v46 : Vec Ideal S1x256 .f32) (p : Fin 2048) (j : Fin 256) :
    k0_pay5 (F := Ideal) v37 v38 v44 v46 (ix2 p j)
      = DeqSpec.lnorm (DeqSpec.relu (fun k => v37 (ix2 p k) + v38 (ix2 (0 : Fin 1) k)))
          (fun k => v44 (ix2 (0 : Fin 1) k)) (fun k => v46 (ix2 (0 : Fin 1) k)) j := by
  rw [pay5_eq, shapeCast_self, shapeCast_self, shapeCast_self, kLN_apply]
  simp only [kRelu_apply, kBias_apply]

/-- The row normalised next, from `xinp`'s block and `z1`'s. -/
theorem pay6_apply (v33 v37 : FVec Ideal S2048x256 .f32) (v38 v44 v46 : Vec Ideal S1x256 .f32)
    (v69 : Vec Ideal S256x256 .bf16) (v72 : Vec Ideal S1x256 .f32) (p : Fin 2048) (j : Fin 256) :
    k0_pay6 (F := Ideal) v33 v37 v38 v44 v46 v69 v72 (ix2 p j)
      = DeqSpec.preInner (fun k => v33 (ix2 p k)) (fun k => k0_pay5 (F := Ideal) v37 v38 v44 v46 (ix2 p k))
          (fun c k => v69 (ix2 c k)) (fun k => v72 (ix2 (0 : Fin 1) k)) j := by
  rw [pay6_eq, shapeCast_self, shapeCast_self, addf_apply, kBias_apply, matmul256_apply]
  rfl

/-- The centred row of the last normalisation. -/
theorem pay10_apply (v67 v76 : FVec Ideal S2048x256 .f32) (v78 : FVec Ideal S1x256 .f32) (v79 : Vec Ideal S1x256 .f32)
    (p : Fin 2048) (j : Fin 256) :
    k0_pay10 (F := Ideal) v67 v76 v78 v79 (ix2 p j)
      = DeqSpec.centered (DeqSpec.relu (fun k => v67 (ix2 p k)
          + DeqSpec.lnorm (fun k' => v76 (ix2 p k')) (fun k' => v78 (ix2 (0 : Fin 1) k'))
              (fun k' => v79 (ix2 (0 : Fin 1) k')) k)) j := by
  rw [pay10_eq, shapeCast_self, kCtr_apply]
  simp only [kRelu_apply, addf_apply, kLN_apply]

/-- Its reciprocal standard deviation. -/
theorem pay11_apply (v67 v76 : FVec Ideal S2048x256 .f32) (v78 : FVec Ideal S1x256 .f32) (v79 : Vec Ideal S1x256 .f32)
    (p : Fin 2048) :
    k0_pay11 (F := Ideal) v67 v76 v78 v79 (ix2 p (0 : Fin 1))
      = DeqSpec.rstd (fun k => k0_pay10 (F := Ideal) v67 v76 v78 v79 (ix2 p k)) := by
  rw [pay11_eq, kRstd_apply]

/-- The stored state block: the scaling of the last normalisation. -/
theorem pay1_apply (v105 v107 : FVec Ideal S1x256 .f32) (v113 : FVec Ideal S2048x256 .f32) (v121 : FVec Ideal S2048x1 .f32)
    (p : Fin 2048) (j : Fin 256) :
    k0_pay1 (F := Ideal) v105 v107 v113 v121 (ix2 p j)
      = DeqSpec.scaled (fun k => v113 (ix2 p k)) (v121 (ix2 p (0 : Fin 1))) (fun k => v105 (ix2 (0 : Fin 1) k))
          (fun k => v107 (ix2 (0 : Fin 1) k)) j := by
  rw [pay1_eq, kScale_apply]

/-- The stored projection block: the state block times the output weights plus the output bias. -/
theorem pay2_apply (v105 v107 : FVec Ideal S1x256 .f32) (v113 : FVec Ideal S2048x256 .f32) (v121 : FVec Ideal S2048x1 .f32)
    (v130 : Vec Ideal S256x32 .bf16) (v133 : Vec Ideal S1x32 .f32) (p : Fin 2048) (j : Fin 32) :
    k0_pay2 (F := Ideal) v105 v107 v113 v121 v130 v133 (ix2 p j)
      = DeqSpec.affine (fun k => k0_pay1 (F := Ideal) v105 v107 v113 v121 (ix2 p k)) (fun c k => v130 (ix2 c k))
          (fun k => v133 (ix2 (0 : Fin 1) k)) j := by
  show matmul dot_S2048x256_S256x32_S2048x32_1_0_0_1_n_n none (truncf .bf16 (k0_pay1 v105 v107 v113 v121) bitsLt_bf16_f32)
        (shapeCast S256x32 v130 shapeCasts_S256x32_S256x32 : FVec Ideal S256x32 .bf16) (constant S2048x32 .f32 0x00000000#32) (ix2 p j)
      + broadcastTo S2048x32 (shapeCast S1x32 v133 shapeCasts_S1x32_S1x32) broadcasts_S1x32_S2048x32 (ix2 p j) = _
  rw [shapeCast_self, shapeCast_self, matmul32_apply, broadcastTo_1b_ab_apply]
  rfl

/-! ## The two stored blocks -/

theorem hz : (![0, 0] : Fin 2 → Nat) = fun _ => 0 := funext fun a => by fin_cases a <;> rfl

/-- The new state's block at `(p, j)`: entry `j` of the row function of row `p` of the two batch blocks. -/
theorem out18_apply (x0 : Vec Ideal S2048x48 .f32) (x1 : Vec Ideal S2048x256 .f32) (x2 : Vec Ideal S48x256 .bf16)
    (x3 x4 x5 : Vec Ideal S1x256 .f32) (x6 : Vec Ideal S256x256 .bf16) (x7 x8 x9 : Vec Ideal S1x256 .f32)
    (x10 : Vec Ideal S256x256 .bf16) (x11 x12 x13 x14 x15 : Vec Ideal S1x256 .f32) (x16 : Vec Ideal S256x32 .bf16)
    (x17 : Vec Ideal S1x32 .f32) (p : Fin 2048) (j : Fin 256) :
    out0_18 (F := Ideal) x0 x1 x2 x3 x4 x5 x6 x7 x8 x9 x10 x11 x12 x13 x14 x15 x16 x17 (ix2 p j)
      = Cert.DeqSpec.zoutRow (fun c => x0 (ix2 p c)) (fun k => x1 (ix2 p k)) (fun c k => x2 (ix2 c k))
          (fun k => x3 (ix2 (0 : Fin 1) k)) (fun k => x4 (ix2 (0 : Fin 1) k)) (fun k => x5 (ix2 (0 : Fin 1) k))
          (fun c k => x6 (ix2 c k)) (fun k => x7 (ix2 (0 : Fin 1) k)) (fun k => x8 (ix2 (0 : Fin 1) k)) (fun k => x9 (ix2 (0 : Fin 1) k))
          (fun c k => x10 (ix2 c k)) (fun k => x11 (ix2 (0 : Fin 1) k)) (fun k => x12 (ix2 (0 : Fin 1) k)) (fun k => x13 (ix2 (0 : Fin 1) k))
          (fun k => x14 (ix2 (0 : Fin 1) k)) (fun k => x15 (ix2 (0 : Fin 1) k)) j := by
  unfold out0_18
  rw [View.canon_unit_zero hz]
  simp only [View.ld_unit_zero (S := S2048x48) hz, View.ld_unit_zero (S := S2048x256) hz, View.ld_unit_zero (S := S48x256) hz,
    View.ld_unit_zero (S := S1x256) hz, View.ld_unit_zero (S := S256x256) hz]
  simp only [pay7_eq, pay8_eq, pay9_eq]
  rw [pay1_apply, pay11_apply]
  simp only [pay10_apply, pay6_apply, pay5_apply, pay4_apply, pay3_apply]
  rfl

/-- The projection's block at `(p, j)`: entry `j` of the projected row. -/
theorem out19_apply (x0 : Vec Ideal S2048x48 .f32) (x1 : Vec Ideal S2048x256 .f32) (x2 : Vec Ideal S48x256 .bf16)
    (x3 x4 x5 : Vec Ideal S1x256 .f32) (x6 : Vec Ideal S256x256 .bf16) (x7 x8 x9 : Vec Ideal S1x256 .f32)
    (x10 : Vec Ideal S256x256 .bf16) (x11 x12 x13 x14 x15 : Vec Ideal S1x256 .f32) (x16 : Vec Ideal S256x32 .bf16)
    (x17 : Vec Ideal S1x32 .f32) (p : Fin 2048) (j : Fin 32) :
    out0_19 (F := Ideal) x0 x1 x2 x3 x4 x5 x6 x7 x8 x9 x10 x11 x12 x13 x14 x15 x16 x17 (ix2 p j)
      = Cert.DeqSpec.dxRow (fun c => x0 (ix2 p c)) (fun k => x1 (ix2 p k)) (fun c k => x2 (ix2 c k))
          (fun k => x3 (ix2 (0 : Fin 1) k)) (fun k => x4 (ix2 (0 : Fin 1) k)) (fun k => x5 (ix2 (0 : Fin 1) k))
          (fun c k => x6 (ix2 c k)) (fun k => x7 (ix2 (0 : Fin 1) k)) (fun k => x8 (ix2 (0 : Fin 1) k)) (fun k => x9 (ix2 (0 : Fin 1) k))
          (fun c k => x10 (ix2 c k)) (fun k => x11 (ix2 (0 : Fin 1) k)) (fun k => x12 (ix2 (0 : Fin 1) k)) (fun k => x13 (ix2 (0 : Fin 1) k))
          (fun k => x14 (ix2 (0 : Fin 1) k)) (fun k => x15 (ix2 (0 : Fin 1) k))
          (fun c k => x16 (ix2 c k)) (fun k => x17 (ix2 (0 : Fin 1) k)) j := by
  unfold out0_19
  rw [View.canon_unit_zero hz]
  simp only [View.ld_unit_zero (S := S2048x48) hz, View.ld_unit_zero (S := S2048x256) hz, View.ld_unit_zero (S := S48x256) hz,
    View.ld_unit_zero (S := S1x256) hz, View.ld_unit_zero (S := S256x256) hz, View.ld_unit_zero (S := S256x32) hz,
    View.ld_unit_zero (S := S1x32) hz]
  simp only [pay7_eq, pay8_eq, pay9_eq]
  rw [pay2_apply]
  simp only [pay1_apply, pay11_apply, pay10_apply, pay6_apply, pay5_apply, pay4_apply, pay3_apply]
  rfl

end Cert.DeqKernel

end
-- ==== Proof.KernelArrays.lean ====
/-
  The kernel's run, read: after the run the new state's array holds `DeqSpec.Zout` of the arguments and the host's
  last reshape holds `DeqSpec.Dx` of the arguments cast to `[262144, 8, 4]`.

  Point `t` writes back rows `2048 t … 2048 t + 2047` of each result; by the body's reading at an index
  (`out18_apply`, `out19_apply`) and the blocks' readings (`iblkW_apply`) that is block `t` of the specification's
  array. Row `r` lies in the block of point `r / 2048`, so the 128 blocks cover both arrays.
-/
import proofs.«132396_j15496242004634_2_alg».proof.Proof.KernelBlocks
import proofs.«132396_j15496242004634_2_alg».proof.Proof.KernelBody

set_option maxRecDepth 16384

noncomputable section

open Idealize.ShloMosaic Idealize.ShloMosaic.TcCoe Idealize.SL.Sem Idealize.ShloMosaic.ValueIdx
open Idealize.ShloMosaic.Pipeline (Dat)

namespace Cert.DeqKernel.Arrays

open Cert.KernelIdeal Cert.KernelIdeal.Gen Cert.DeqKernel.Blocks

variable (m : (ℓ : Loc nD τ sig) → Buf (Elt Ideal) ℓ) (ρ : Dev nD → PrngReg)

/-- The specification's new state at core `c`'s argument arrays. -/
abbrev Z (c : Dev nD) : S262144x256.Idx → EReal :=
  Cert.DeqSpec.Zout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- The specification's projection (before the last reshape) at core `c`'s argument arrays. -/
abbrev D (c : Dev nD) : S262144x32.Idx → EReal :=
  Cert.DeqSpec.Dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-! ## What each point writes back -/

theorem flushed18_eq (c : Dev nD) (t : Fin cfg0.N) :
    (dats m 0 c).flushed 18 t = ((cfg0.win 18).blk t).view.read (Elt Ideal) (Z m c) := by
  have hi := (idx_rows t).2.2.1
  have ht := t_lt t
  show (cfg0.win 18).cut (grid0.coords t) ((dats m 0 c).after 18 t) = _
  rw [after0_18]
  funext y
  obtain ⟨p, j, rfl⟩ : ∃ (p : Fin 2048) (j : Fin 256), y = ix2 p j := ⟨y 0, y 1, eq_ix2 y⟩
  rw [View.read_apply]
  have he : ((cfg0.win 18).blk t).view.emb (ix2 p j)
      = ix2 (⟨t.val * 2048 + p.val, by have := p.isLt; omega⟩ : Fin 262144) j := by
    funext a; apply Fin.ext
    match a with
    | ⟨0, _⟩ => show win0_18.index t (0 : Fin 2) * 2048 + 1 * p.val = t.val * 2048 + p.val; rw [hi.1]; omega
    | ⟨1, _⟩ => show win0_18.index t (1 : Fin 2) * 256 + 1 * j.val = j.val; rw [hi.2]; omega
  rw [he]
  refine (out18_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) p j).trans ?_
  show _ = Cert.DeqSpec.zoutRow _ _ _ _ _ _ _ _ _ _ _ _ _ _ _ _ j
  congr 1
  · exact funext fun q => iblk0_apply m c t p q _ rfl
  · exact funext fun q => iblk1_apply m c t p q _ rfl
  · exact funext fun a => funext fun b => iblk2_apply m c t a b
  · exact funext fun k => iblk3_apply m c t k
  · exact funext fun k => iblk4_apply m c t k
  · exact funext fun k => iblk5_apply m c t k
  · exact funext fun a => funext fun b => iblk6_apply m c t a b
  · exact funext fun k => iblk7_apply m c t k
  · exact funext fun k => iblk8_apply m c t k
  · exact funext fun k => iblk9_apply m c t k
  · exact funext fun a => funext fun b => iblk10_apply m c t a b
  · exact funext fun k => iblk11_apply m c t k
  · exact funext fun k => iblk12_apply m c t k
  · exact funext fun k => iblk13_apply m c t k
  · exact funext fun k => iblk14_apply m c t k
  · exact funext fun k => iblk15_apply m c t k

theorem flushed19_eq (c : Dev nD) (t : Fin cfg0.N) :
    (dats m 0 c).flushed 19 t = ((cfg0.win 19).blk t).view.read (Elt Ideal) (D m c) := by
  have hi := (idx_rows t).2.2.2
  have ht := t_lt t
  show (cfg0.win 19).cut (grid0.coords t) ((dats m 0 c).after 19 t) = _
  rw [after0_19]
  funext y
  obtain ⟨p, j, rfl⟩ : ∃ (p : Fin 2048) (j : Fin 32), y = ix2 p j := ⟨y 0, y 1, eq_ix2 y⟩
  rw [View.read_apply]
  have he : ((cfg0.win 19).blk t).view.emb (ix2 p j)
      = ix2 (⟨t.val * 2048 + p.val, by have := p.isLt; omega⟩ : Fin 262144) j := by
    funext a; apply Fin.ext
    match a with
    | ⟨0, _⟩ => show win0_19.index t (0 : Fin 2) * 2048 + 1 * p.val = t.val * 2048 + p.val; rw [hi.1]; omega
    | ⟨1, _⟩ => show win0_19.index t (1 : Fin 2) * 32 + 1 * j.val = j.val; rw [hi.2]; omega
  rw [he]
  refine (out19_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) p j).trans ?_
  show _ = Cert.DeqSpec.dxRow _ _ _ _ _ _ _ _ _ _ _ _ _ _ _ _ _ _ j
  congr 1
  · exact funext fun q => iblk0_apply m c t p q _ rfl
  · exact funext fun q => iblk1_apply m c t p q _ rfl
  · exact funext fun a => funext fun b => iblk2_apply m c t a b
  · exact funext fun k => iblk3_apply m c t k
  · exact funext fun k => iblk4_apply m c t k
  · exact funext fun k => iblk5_apply m c t k
  · exact funext fun a => funext fun b => iblk6_apply m c t a b
  · exact funext fun k => iblk7_apply m c t k
  · exact funext fun k => iblk8_apply m c t k
  · exact funext fun k => iblk9_apply m c t k
  · exact funext fun a => funext fun b => iblk10_apply m c t a b
  · exact funext fun k => iblk11_apply m c t k
  · exact funext fun k => iblk12_apply m c t k
  · exact funext fun k => iblk13_apply m c t k
  · exact funext fun k => iblk14_apply m c t k
  · exact funext fun k => iblk15_apply m c t k
  · exact funext fun a => funext fun b => iblk16_apply m c t a b
  · exact funext fun k => iblk17_apply m c t k

/-! ## The blocks cover the arrays -/

theorem mem_blk18 (t : Fin cfg0.N) (i : S262144x256.Idx) :
    i ∈ ((cfg0.win 18).blk t).view.set ↔ ∀ a : Fin 2, win0_18.index t a * S2048x256.size a ≤ (i a).val ∧ (i a).val < win0_18.index t a * S2048x256.size a + S2048x256.size a := by
  show i ∈ ((View.whole main_v16_0).slice (win0_18.rect t)).set ↔ _
  rw [View.set_slice_whole, Rect.mem_set_unit]
  exact Iff.rfl

theorem mem_blk19 (t : Fin cfg0.N) (i : S262144x32.Idx) :
    i ∈ ((cfg0.win 19).blk t).view.set ↔ ∀ a : Fin 2, win0_19.index t a * S2048x32.size a ≤ (i a).val ∧ (i a).val < win0_19.index t a * S2048x32.size a + S2048x32.size a := by
  show i ∈ ((View.whole main_v16_1).slice (win0_19.rect t)).set ↔ _
  rw [View.set_slice_whole, Rect.mem_set_unit]
  exact Iff.rfl

/-- Row `r` of the new state is in the block of point `r / 2048`. -/
theorem cover18 (i : S262144x256.Idx) :
    ∃ t : Fin cfg0.N, (cfg0.win 18).flush t = true ∧ i ∈ ((cfg0.win 18).blk t).view.set := by
  have h0 : (i 0).val < 262144 := (i 0).isLt
  have h1 : (i 1).val < 256 := (i 1).isLt
  have hN : (i 0).val / 2048 < cfg0.N := by show _ < grid0.N; rw [N_0]; omega
  refine ⟨⟨(i 0).val / 2048, hN⟩, flush0_18 _, ?_⟩
  obtain ⟨-, -, hi, -⟩ := idx_rows ⟨(i 0).val / 2048, hN⟩
  rw [mem_blk18]
  intro a
  match a with
  | ⟨0, _⟩ => show win0_18.index ⟨(i 0).val / 2048, hN⟩ (0 : Fin 2) * 2048 ≤ (i 0).val ∧ (i 0).val < win0_18.index ⟨(i 0).val / 2048, hN⟩ (0 : Fin 2) * 2048 + 2048; rw [hi.1]; show (i 0).val / 2048 * 2048 ≤ (i 0).val ∧ (i 0).val < (i 0).val / 2048 * 2048 + 2048; omega
  | ⟨1, _⟩ => show win0_18.index ⟨(i 0).val / 2048, hN⟩ (1 : Fin 2) * 256 ≤ (i 1).val ∧ (i 1).val < win0_18.index ⟨(i 0).val / 2048, hN⟩ (1 : Fin 2) * 256 + 256; rw [hi.2]; omega

/-- Row `r` of the projection is in the block of point `r / 2048`. -/
theorem cover19 (i : S262144x32.Idx) :
    ∃ t : Fin cfg0.N, (cfg0.win 19).flush t = true ∧ i ∈ ((cfg0.win 19).blk t).view.set := by
  have h0 : (i 0).val < 262144 := (i 0).isLt
  have h1 : (i 1).val < 32 := (i 1).isLt
  have hN : (i 0).val / 2048 < cfg0.N := by show _ < grid0.N; rw [N_0]; omega
  refine ⟨⟨(i 0).val / 2048, hN⟩, flush0_19 _, ?_⟩
  obtain ⟨-, -, -, hi⟩ := idx_rows ⟨(i 0).val / 2048, hN⟩
  rw [mem_blk19]
  intro a
  match a with
  | ⟨0, _⟩ => show win0_19.index ⟨(i 0).val / 2048, hN⟩ (0 : Fin 2) * 2048 ≤ (i 0).val ∧ (i 0).val < win0_19.index ⟨(i 0).val / 2048, hN⟩ (0 : Fin 2) * 2048 + 2048; rw [hi.1]; show (i 0).val / 2048 * 2048 ≤ (i 0).val ∧ (i 0).val < (i 0).val / 2048 * 2048 + 2048; omega
  | ⟨1, _⟩ => show win0_19.index ⟨(i 0).val / 2048, hN⟩ (1 : Fin 2) * 32 ≤ (i 1).val ∧ (i 1).val < win0_19.index ⟨(i 0).val / 2048, hN⟩ (1 : Fin 2) * 32 + 32; rw [hi.2]; omega

/-! ## The arrays after the run -/

theorem final18 (c : Dev nD) : (dats m 0 c).arrAt 18 cfg0.N = Z m c :=
  (dats m 0 c).arrAt_eq_of_cover 18 (Z m c) (fun t _ => flushed18_eq m c t) cover18

theorem final19 (c : Dev nD) : (dats m 0 c).arrAt 19 cfg0.N = D m c :=
  (dats m 0 c).arrAt_eq_of_cover 19 (D m c) (fun t _ => flushed19_eq m c t) cover19

/-- The host's reshape after the call, of the projection's array. -/
theorem tail_eq (c : Dev nD) :
    Pipeline.afterTail₀ cfgs (dats m) 0 (V0 m) [hostOps1] c main_v17
      = shapeCast S262144x8x4 (D m c) shapeCasts_S262144x32_S262144x8x4 := by
  unfold Pipeline.afterTail₀
  show StableHlo.after hostOps1 _ (Proc.devRef .tc main_v17) = _
  after_results
  have e : Pipeline.withArrays (cfgs 0).spec c (V0 m c) (fun w => (dats m 0 c).arrAt w (cfgs 0).N) (Proc.tc.devRef main_v16_1)
      = D m c :=
    (Pipeline.withArrays_arr spec0 launch0.win.arr_inj c _ _ 19).trans (final19 m c)
  rw [e]
  rfl

/-! ## The run -/

/-- Every weakly fair execution of the kernel's program terminates with the host's last reshape holding the
    specification's projection, the new state's array holding the specification's new state, and the arguments
    unchanged. -/
theorem run : θ_run defs (onTc (τ := τ) (main (F := Ideal))) ⟨m, fun _ => 0, ρ⟩ fun r => ∀ c : Dev nD,
      r.2.mem ((c : Thread nD τ).loc main_v17) = shapeCast S262144x8x4 (D m c) shapeCasts_S262144x32_S262144x8x4
      ∧ r.2.mem ((c : Thread nD τ).loc main_v16_0) = Z m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨
      ((h c).2 main_v17 (Pipeline.mem_restRefs_of main_v17 (by decide) (by decide))).trans (tail_eq m c),
      ((h c).1 18).trans (final18 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c))⟩)
    (run_main m ρ)

end Cert.DeqKernel.Arrays

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.RefOps.lean ====
/-
  The reference program's host operations, grouped into the layer's stages and read at one entry.

  The reference computes on whole arrays of 262144 rows. Each stage is a short fixed sequence of host operations: a
  row sum kept as a column and divided by the f32 word of 256 (a mean), the column broadcast back along the rows'
  entries, a gain or bias row broadcast down the rows, the product of two matrices plus a bias row. This module names
  those sequences as array functions, in the order and with the shape records the program prints them, and proves
  that each, read at row `r` and column `j`, is the corresponding row function of the specification applied to row
  `r` of its operand: every entry of a result row depends on the same row of the operand only.
-/
import proofs.«132396_j15496242004634_2_alg».proof.Proof.Gen.ReferenceIdeal
import proofs.«132396_j15496242004634_2_alg».proof.Proof.DeqSpec
import proofs.«132396_j15496242004634_2_alg».proof.Proof.LibHostDotIx
import Idealize.ShloMosaic.Lib.IdealHost
import Idealize.ShloMosaic.Lib.Pipeline.Value

noncomputable section

open scoped BigOperators

namespace Cert.DeqRef

open Cert.ReferenceIdeal Cert.ReferenceIdeal.Gen Idealize.ShloMosaic Idealize.ShloMosaic.ValueIdx

/-- A batch of 262144 rows of 256 features. -/
abbrev Mat : Type := FVec Ideal S262144x256 .f32
/-- One number per batch row, kept as a column. -/
abbrev Col : Type := FVec Ideal S262144x1 .f32
/-- One number per feature. -/
abbrev Vec : Type := FVec Ideal S256 .f32

/-! ## The layout steps -/

/-- A feature vector as a row, repeated down the batch. -/
def rowBc (g : Vec) : Mat :=
  broadcastInDim S262144x256 ![0, 1] bcast_S1x256_S262144x256_0_1 (broadcastInDim S1x256 ![1] bcast_S256_S1x256_1 g)

/-- A column repeated along the features. -/
def colBc (c : Col) : Mat := broadcastInDim S262144x256 ![0, 1] bcast_S262144x1_S262144x256_0_1 c

/-- The column every entry of which is one f32 word. -/
def splatCol (w : BitVec 32) : Col :=
  broadcastInDim S262144x1 ![] bcast_S_S262144x1 (constant (F := Ideal) S_ .f32 w)

/-- The sum of each row from the initial value `0.0`, kept as a column. -/
def rowSumCol (v : Mat) : Col :=
  broadcastInDim S262144x1 ![0] bcast_S262144_S262144x1_0
    (Host.reduceAdd (F := Ideal) v (constant (F := Ideal) S_ .f32 0x00000000#32) reducesTo_S262144x256_S262144_d1 h_S_)

theorem rowBc_apply (g : Vec) (r : Fin 262144) (j : Fin 256) : rowBc g (ix2 r j) = g (ix1 j) := by
  unfold rowBc
  refine (broadcastInDim_apply _ bcast_S1x256_S262144x256_0_1 _ (ix2 r j) (ix2 (0 : Fin 1) j) (fun a => match a with
    | ⟨0, _⟩ => by show 0 = if (1 : Nat) = 1 then 0 else r.val; rw [if_pos rfl]
    | ⟨1, _⟩ => by show j.val = if (256 : Nat) = 1 then 0 else j.val; rw [if_neg (by decide)])).trans ?_
  exact broadcastInDim_apply _ bcast_S256_S1x256_1 g (ix2 (0 : Fin 1) j) (ix1 j) (fun a => match a with
    | ⟨0, _⟩ => by show j.val = if (256 : Nat) = 1 then 0 else j.val; rw [if_neg (by decide)])

theorem colBc_apply (c : Col) (r : Fin 262144) (j : Fin 256) : colBc c (ix2 r j) = c (ix2 r (0 : Fin 1)) := by
  unfold colBc
  exact broadcastInDim_apply _ bcast_S262144x1_S262144x256_0_1 c (ix2 r j) (ix2 r (0 : Fin 1)) (fun a => match a with
    | ⟨0, _⟩ => by show r.val = if (262144 : Nat) = 1 then 0 else r.val; rw [if_neg (by decide)]
    | ⟨1, _⟩ => by show 0 = if (1 : Nat) = 1 then 0 else j.val; rw [if_pos rfl])

theorem splatCol_apply (w : BitVec 32) (i : S262144x1.Idx) : splatCol w i = Ideal.ofBits .f32 w := by
  unfold splatCol
  exact broadcastInDim_scalar_apply bcast_S_S262144x1 _ i

theorem rowSumCol_apply (v : Mat) (r : Fin 262144) (u : Fin 1) : rowSumCol v (ix2 r u) = ∑ k : Fin 256, v (ix2 r k) := by
  unfold rowSumCol
  refine (broadcastInDim_apply _ bcast_S262144_S262144x1_0 _ (ix2 r u) (ix1 r) (fun a => match a with
    | ⟨0, _⟩ => by show r.val = if (262144 : Nat) = 1 then 0 else r.val; rw [if_neg (by decide)])).trans ?_
  simp only [Host.reduceAdd, Ideal.hostReduceAdd_def]
  rw [Ideal.hostReduceAdd_single reducesTo_S262144x256_S262144_d1 (by decide)]
  refine (congrArg (· + _) Ideal.ofBits_zero_f32).trans ((zero_add _).trans (Finset.sum_congr rfl fun k _ => ?_))
  exact congrArg v (funext fun a => Fin.ext (by match a with | ⟨0, _⟩ => rfl | ⟨1, _⟩ => rfl))

/-! ## Layer normalisation of every row -/

/-- The mean of each row: the row sum divided by the f32 word of 256. -/
def meanCol (v : Mat) : Col := Host.divf (rowSumCol v) (splatCol 0x43800000#32)

/-- Every row minus its mean. -/
def centred (v : Mat) : Mat := subf v (colBc (meanCol v))

/-- The reciprocal standard deviation of each (centred) row: `rsqrt` of the mean of its squares plus the f32 word of 1e-5. -/
def rstdCol (d : Mat) : Col :=
  Host.rsqrt (addf (Host.divf (rowSumCol (mulf d d)) (splatCol 0x43800000#32)) (splatCol 0x3727C5AC#32))

/-- Layer normalisation of every row with gain `g` and offset `b`: the centred rows times their reciprocal standard
    deviations, times the gain row, plus the offset row. -/
def hLN (v : Mat) (g b : Vec) : Mat :=
  addf (mulf (mulf (centred v) (colBc (rstdCol (centred v)))) (rowBc g)) (rowBc b)

theorem centred_apply (v : Mat) (r : Fin 262144) (j : Fin 256) :
    centred v (ix2 r j) = DeqSpec.centered (DeqSpec.rowOf v r) j := by
  show v (ix2 r j) - colBc (meanCol v) (ix2 r j) = v (ix2 r j) - Ideal.div (∑ k : Fin 256, v (ix2 r k)) DeqSpec.width
  rw [colBc_apply]
  show v (ix2 r j) - Ideal.div (rowSumCol v (ix2 r (0 : Fin 1))) (splatCol 0x43800000#32 (ix2 r (0 : Fin 1))) = _
  rw [rowSumCol_apply, splatCol_apply]
  rfl

/-- Row `r` of the centred array is the centred row `r`. -/
theorem rowOf_centred (v : Mat) (r : Fin 262144) : DeqSpec.rowOf (centred v) r = DeqSpec.centered (DeqSpec.rowOf v r) :=
  funext fun k => centred_apply v r k

theorem rstdCol_apply (d : Mat) (r : Fin 262144) (u : Fin 1) : rstdCol d (ix2 r u) = DeqSpec.rstd (DeqSpec.rowOf d r) := by
  show Ideal.rsqrt (Ideal.div (rowSumCol (mulf d d) (ix2 r u)) (splatCol 0x43800000#32 (ix2 r u)) + splatCol 0x3727C5AC#32 (ix2 r u))
    = Ideal.rsqrt (Ideal.div (∑ k : Fin 256, d (ix2 r k) * d (ix2 r k)) DeqSpec.width + DeqSpec.eps)
  rw [rowSumCol_apply, splatCol_apply, splatCol_apply]
  rfl

/-- The normalised array read at `(r, j)` is the normalisation of row `r` read at `j`. -/
theorem hLN_apply (v : Mat) (g b : Vec) (r : Fin 262144) (j : Fin 256) :
    hLN v g b (ix2 r j) = DeqSpec.lnorm (DeqSpec.rowOf v r) (DeqSpec.vecOf g) (DeqSpec.vecOf b) j := by
  show centred v (ix2 r j) * colBc (rstdCol (centred v)) (ix2 r j) * rowBc g (ix2 r j) + rowBc b (ix2 r j)
    = DeqSpec.centered (DeqSpec.rowOf v r) j * DeqSpec.rstd (DeqSpec.centered (DeqSpec.rowOf v r)) * g (ix1 j) + b (ix1 j)
  rw [colBc_apply, rstdCol_apply, rowBc_apply, rowBc_apply, centred_apply, rowOf_centred]

/-- Row `r` of the normalised array. -/
theorem rowOf_hLN (v : Mat) (g b : Vec) (r : Fin 262144) :
    DeqSpec.rowOf (hLN v g b) r = DeqSpec.lnorm (DeqSpec.rowOf v r) (DeqSpec.vecOf g) (DeqSpec.vecOf b) :=
  funext fun j => hLN_apply v g b r j

/-! ## The rectifier -/

/-- The maximum of every entry and the f32 word of 0.0. -/
def hRelu (v : Mat) : Mat :=
  maximumf v (broadcastInDim S262144x256 ![] bcast_S_S262144x256 (constant (F := Ideal) S_ .f32 0x00000000#32))

theorem hRelu_apply (v : Mat) (r : Fin 262144) (j : Fin 256) : hRelu v (ix2 r j) = DeqSpec.relu (DeqSpec.rowOf v r) j := by
  show max (v (ix2 r j)) (broadcastInDim S262144x256 ![] bcast_S_S262144x256 (constant (F := Ideal) S_ .f32 0x00000000#32) (ix2 r j))
    = max (v (ix2 r j)) DeqSpec.zero
  rw [broadcastInDim_scalar_apply bcast_S_S262144x256 _ (ix2 r j)]
  rfl

theorem rowOf_hRelu (v : Mat) (r : Fin 262144) : DeqSpec.rowOf (hRelu v) r = DeqSpec.relu (DeqSpec.rowOf v r) :=
  funext fun j => hRelu_apply v r j

/-! ## A product of matrices plus a bias row -/

/-- A bias vector of any length as a row, repeated down any number of rows, read at `(r, j)`. -/
theorem biasBc_apply {a n : ℕ} (h1 : (⟨1, ![n]⟩ : Shape).BroadcastsInDim ⟨2, ![1, n]⟩ ![1])
    (h2 : (⟨2, ![1, n]⟩ : Shape).BroadcastsInDim ⟨2, ![a, n]⟩ ![0, 1]) (b : (⟨1, ![n]⟩ : Shape).Idx → EReal)
    (r : Fin a) (j : Fin n) :
    broadcastInDim (⟨2, ![a, n]⟩ : Shape) ![0, 1] h2 (broadcastInDim (⟨2, ![1, n]⟩ : Shape) ![1] h1 b) (ix2 r j) = b (ix1 j) := by
  refine (broadcastInDim_apply _ h2 _ (ix2 r j) (ix2 (0 : Fin 1) j) (fun c => match c with
    | ⟨0, _⟩ => by show 0 = if (1 : Nat) = 1 then 0 else r.val; rw [if_pos rfl]
    | ⟨1, _⟩ => by
      show j.val = if n = 1 then 0 else j.val
      split
      · have := j.isLt; omega
      · rfl)).trans ?_
  exact broadcastInDim_apply _ h1 b (ix2 (0 : Fin 1) j) (ix1 j) (fun c => match c with
    | ⟨0, _⟩ => by
      show j.val = if n = 1 then 0 else j.val
      split
      · have := j.isLt; omega
      · rfl)

/-- The product of an `a × K` by a `K × N` matrix plus a bias row, read at `(r, j)`: the affine map of row `r`. -/
theorem affine_apply {a K N : ℕ}
    (w : DotDims.WF ⟨2, ![a, K]⟩ ⟨2, ![K, N]⟩ ⟨2, ![a, N]⟩ [1] [0] [0] [1] [] [])
    (h1 : (⟨1, ![N]⟩ : Shape).BroadcastsInDim ⟨2, ![1, N]⟩ ![1])
    (h2 : (⟨2, ![1, N]⟩ : Shape).BroadcastsInDim ⟨2, ![a, N]⟩ ![0, 1])
    (A : FVec Ideal ⟨2, ![a, K]⟩ .f32) (W : FVec Ideal ⟨2, ![K, N]⟩ .f32) (b : FVec Ideal ⟨1, ![N]⟩ .f32)
    (r : Fin a) (j : Fin N) :
    addf (Host.dotGeneral (F := Ideal) (⟨[1], [0], [0], [1], [], [], w⟩ : DotDims _ _ _) none A W)
        (broadcastInDim (⟨2, ![a, N]⟩ : Shape) ![0, 1] h2 (broadcastInDim (⟨2, ![1, N]⟩ : Shape) ![1] h1 b)) (ix2 r j)
      = DeqSpec.affine (DeqSpec.rowOf A r) (DeqSpec.matOf W) (DeqSpec.vecOf b) j := by
  show Host.dotGeneral (F := Ideal) (⟨[1], [0], [0], [1], [], [], w⟩ : DotDims _ _ _) none A W (ix2 r j)
      + broadcastInDim (⟨2, ![a, N]⟩ : Shape) ![0, 1] h2 (broadcastInDim (⟨2, ![1, N]⟩ : Shape) ![1] h1 b) (ix2 r j)
    = (∑ c : Fin K, A (ix2 r c) * W (ix2 c j)) + b (ix1 j)
  rw [Cert.LibHostDotIx.dotGeneral_apply w none A W r j, biasBc_apply h1 h2 b r j]

end Cert.DeqRef

end
-- ==== Proof.RefValue.lean ====
/-
  The reference program's two results as whole arrays: each entry is the layer's row function of one batch row.

  The generated stage values are the grouped array functions of the operations module, stage by stage: an affine map,
  a layer normalisation, a rectifier. Reading a stage at row `r` gives the specification's row function of row `r` of
  the stage's operand, so the chain of stages, read at row `r`, is the chain of row functions of rows `r` of the two
  batch inputs. The one place where the program and the specification associate a sum differently is the row that is
  normalised third: the program adds the bias row to `xinp + z1 W_2`, the specification adds `xinp` to
  `z1 W_2 + b_2`; addition of extended reals is associative, so the two agree with no finiteness asked.
-/
import proofs.«132396_j15496242004634_2_alg».proof.Proof.Gen.ReferenceIdeal.Read
import proofs.«132396_j15496242004634_2_alg».proof.Proof.RefOps

noncomputable section

open scoped BigOperators

namespace Cert.DeqRef

open Cert.ReferenceIdeal Cert.ReferenceIdeal.Gen Cert.ReferenceIdeal.Read Idealize.ShloMosaic Idealize.ShloMosaic.ValueIdx

section Rows

variable (a0 : (⟨S262144x48, .f32⟩ : BufTy).Contents (Elt Ideal)) (a1 : (⟨S262144x256, .f32⟩ : BufTy).Contents (Elt Ideal))
  (a2 : (⟨S48x256, .f32⟩ : BufTy).Contents (Elt Ideal)) (a3 a4 a5 : (⟨S256, .f32⟩ : BufTy).Contents (Elt Ideal))
  (a6 : (⟨S256x256, .f32⟩ : BufTy).Contents (Elt Ideal)) (a7 a8 a9 : (⟨S256, .f32⟩ : BufTy).Contents (Elt Ideal))
  (a10 : (⟨S256x256, .f32⟩ : BufTy).Contents (Elt Ideal)) (a11 a12 a13 a14 a15 : (⟨S256, .f32⟩ : BufTy).Contents (Elt Ideal))
  (a16 : (⟨S256x32, .f32⟩ : BufTy).Contents (Elt Ideal)) (a17 : (⟨S32, .f32⟩ : BufTy).Contents (Elt Ideal))
  (r : Fin 262144)

/-- The specification's `xinp` of batch row `r`. -/
local notation "XI" => DeqSpec.xinpRow (DeqSpec.rowOf a0 r) (DeqSpec.matOf a2) (DeqSpec.vecOf a3) (DeqSpec.vecOf a4) (DeqSpec.vecOf a5)
/-- The specification's `z1` of batch row `r`. -/
local notation "Z1" => DeqSpec.z1Row (DeqSpec.rowOf a1 r) (DeqSpec.matOf a6) (DeqSpec.vecOf a7) (DeqSpec.vecOf a8) (DeqSpec.vecOf a9)

/-- Row `r` of `x W_inp + b_inp`. -/
theorem row_v3 : DeqSpec.rowOf (val_main_v3 (F := Ideal) a0 a2 a3) r
    = DeqSpec.affine (DeqSpec.rowOf a0 r) (DeqSpec.matOf a2) (DeqSpec.vecOf a3) :=
  funext fun j => affine_apply _ bcast_S256_S1x256_1 bcast_S1x256_S262144x256_0_1 a0 a2 a3 r j

/-- Row `r` of `xinp`. -/
theorem row_v27 : DeqSpec.rowOf (val_main_v27 (F := Ideal) a0 a2 a3 a4 a5) r = XI := by
  show DeqSpec.rowOf (hLN (val_main_v3 (F := Ideal) a0 a2 a3) a4 a5) r = _
  rw [rowOf_hLN, row_v3]
  rfl

/-- Row `r` of `z W_1 + b_1`. -/
theorem row_v31 : DeqSpec.rowOf (val_main_v31 (F := Ideal) a1 a6 a7) r
    = DeqSpec.affine (DeqSpec.rowOf a1 r) (DeqSpec.matOf a6) (DeqSpec.vecOf a7) :=
  funext fun j => affine_apply _ bcast_S256_S1x256_1 bcast_S1x256_S262144x256_0_1 a1 a6 a7 r j

/-- Row `r` of its rectifier. -/
theorem row_v32 : DeqSpec.rowOf (val_main_v32 (F := Ideal) a1 a6 a7) r
    = DeqSpec.relu (DeqSpec.affine (DeqSpec.rowOf a1 r) (DeqSpec.matOf a6) (DeqSpec.vecOf a7)) := by
  show DeqSpec.rowOf (hRelu (val_main_v31 (F := Ideal) a1 a6 a7)) r = _
  rw [rowOf_hRelu, row_v31]

/-- Row `r` of `z1`. -/
theorem row_v56 : DeqSpec.rowOf (val_main_v56 (F := Ideal) a1 a6 a7 a8 a9) r = Z1 := by
  show DeqSpec.rowOf (hLN (val_main_v32 (F := Ideal) a1 a6 a7) a8 a9) r = _
  rw [rowOf_hLN, row_v32]
  rfl

/-- Row `r` of the array normalised third. The program adds `(xinp + z1 W_2) + b_2`; the specification's row is
    `xinp + (z1 W_2 + b_2)`: the same extended real by associativity. -/
theorem row_v61 : DeqSpec.rowOf (val_main_v61 (F := Ideal) a0 a1 a2 a3 a4 a5 a6 a7 a8 a9 a10 a11) r
    = DeqSpec.preInner XI Z1 (DeqSpec.matOf a10) (DeqSpec.vecOf a11) := by
  funext j
  have e27 : val_main_v27 (F := Ideal) a0 a2 a3 a4 a5 (ix2 r j) = XI j := congrFun (row_v27 a0 a2 a3 a4 a5 r) j
  have e57 : val_main_v57 (F := Ideal) a1 a6 a7 a8 a9 a10 (ix2 r j) = ∑ c : Fin 256, Z1 c * a10 (ix2 c j) := by
    refine (Cert.LibHostDotIx.dotGeneral_apply _ none (val_main_v56 (F := Ideal) a1 a6 a7 a8 a9) a10 r j).trans ?_
    refine Finset.sum_congr rfl fun c _ => ?_
    exact congrArg (· * a10 (ix2 c j)) (congrFun (row_v56 a1 a6 a7 a8 a9 r) c)
  have e60 : val_main_v60 (F := Ideal) a11 (ix2 r j) = a11 (ix1 j) := rowBc_apply a11 r j
  show (val_main_v27 (F := Ideal) a0 a2 a3 a4 a5 (ix2 r j) + val_main_v57 (F := Ideal) a1 a6 a7 a8 a9 a10 (ix2 r j))
      + val_main_v60 (F := Ideal) a11 (ix2 r j)
    = XI j + ((∑ c : Fin 256, Z1 c * a10 (ix2 c j)) + a11 (ix1 j))
  rw [e27, e57, e60, add_assoc]

/-- Row `r` of the inner normalisation. -/
theorem row_v85 : DeqSpec.rowOf (val_main_v85 (F := Ideal) a0 a1 a2 a3 a4 a5 a6 a7 a8 a9 a10 a11 a12 a13) r
    = DeqSpec.lnorm (DeqSpec.preInner XI Z1 (DeqSpec.matOf a10) (DeqSpec.vecOf a11)) (DeqSpec.vecOf a12) (DeqSpec.vecOf a13) := by
  show DeqSpec.rowOf (hLN (val_main_v61 (F := Ideal) a0 a1 a2 a3 a4 a5 a6 a7 a8 a9 a10 a11) a12 a13) r = _
  rw [rowOf_hLN, row_v61]

/-- Row `r` of the rectifier of `z1 + inner`. -/
theorem row_v87 : DeqSpec.rowOf (val_main_v87 (F := Ideal) a0 a1 a2 a3 a4 a5 a6 a7 a8 a9 a10 a11 a12 a13) r
    = DeqSpec.relu (fun j => Z1 j
        + DeqSpec.lnorm (DeqSpec.preInner XI Z1 (DeqSpec.matOf a10) (DeqSpec.vecOf a11)) (DeqSpec.vecOf a12) (DeqSpec.vecOf a13) j) := by
  show DeqSpec.rowOf (hRelu (val_main_v86 (F := Ideal) a0 a1 a2 a3 a4 a5 a6 a7 a8 a9 a10 a11 a12 a13)) r = _
  rw [rowOf_hRelu]
  refine congrArg DeqSpec.relu (funext fun j => ?_)
  have e56 : val_main_v56 (F := Ideal) a1 a6 a7 a8 a9 (ix2 r j) = Z1 j := congrFun (row_v56 a1 a6 a7 a8 a9 r) j
  have e85 := congrFun (row_v85 a0 a1 a2 a3 a4 a5 a6 a7 a8 a9 a10 a11 a12 a13 r) j
  show val_main_v56 (F := Ideal) a1 a6 a7 a8 a9 (ix2 r j)
      + DeqSpec.rowOf (val_main_v85 (F := Ideal) a0 a1 a2 a3 a4 a5 a6 a7 a8 a9 a10 a11 a12 a13) r j = _
  rw [e56, e85]

/-- Row `r` of the new state. -/
theorem row_v111 : DeqSpec.rowOf (val_main_v111 (F := Ideal) a0 a1 a2 a3 a4 a5 a6 a7 a8 a9 a10 a11 a12 a13 a14 a15) r
    = DeqSpec.zoutRow (DeqSpec.rowOf a0 r) (DeqSpec.rowOf a1 r) (DeqSpec.matOf a2) (DeqSpec.vecOf a3) (DeqSpec.vecOf a4)
        (DeqSpec.vecOf a5) (DeqSpec.matOf a6) (DeqSpec.vecOf a7) (DeqSpec.vecOf a8) (DeqSpec.vecOf a9) (DeqSpec.matOf a10)
        (DeqSpec.vecOf a11) (DeqSpec.vecOf a12) (DeqSpec.vecOf a13) (DeqSpec.vecOf a14) (DeqSpec.vecOf a15) := by
  show DeqSpec.rowOf (hLN (val_main_v87 (F := Ideal) a0 a1 a2 a3 a4 a5 a6 a7 a8 a9 a10 a11 a12 a13) a14 a15) r = _
  rw [rowOf_hLN, row_v87]
  rfl

/-- Row `r` of the output projection before its final reshape. -/
theorem row_v115 : DeqSpec.rowOf (val_main_v115 (F := Ideal) a0 a1 a2 a3 a4 a5 a6 a7 a8 a9 a10 a11 a12 a13 a14 a15 a16 a17) r
    = DeqSpec.dxRow (DeqSpec.rowOf a0 r) (DeqSpec.rowOf a1 r) (DeqSpec.matOf a2) (DeqSpec.vecOf a3) (DeqSpec.vecOf a4)
        (DeqSpec.vecOf a5) (DeqSpec.matOf a6) (DeqSpec.vecOf a7) (DeqSpec.vecOf a8) (DeqSpec.vecOf a9) (DeqSpec.matOf a10)
        (DeqSpec.vecOf a11) (DeqSpec.vecOf a12) (DeqSpec.vecOf a13) (DeqSpec.vecOf a14) (DeqSpec.vecOf a15)
        (DeqSpec.matOf a16) (DeqSpec.vecOf a17) := by
  funext j
  refine (affine_apply _ bcast_S32_S1x32_1 bcast_S1x32_S262144x32_0_1
    (val_main_v111 (F := Ideal) a0 a1 a2 a3 a4 a5 a6 a7 a8 a9 a10 a11 a12 a13 a14 a15) a16 a17 r j).trans ?_
  rw [row_v111]
  rfl

end Rows

/-! ## The two results -/

/-- The reference's new state is the specification's: entry `(r, j)` is entry `j` of the row function of rows `r`. -/
theorem ref_zout (a0 : (⟨S262144x48, .f32⟩ : BufTy).Contents (Elt Ideal)) (a1 : (⟨S262144x256, .f32⟩ : BufTy).Contents (Elt Ideal))
    (a2 : (⟨S48x256, .f32⟩ : BufTy).Contents (Elt Ideal)) (a3 a4 a5 : (⟨S256, .f32⟩ : BufTy).Contents (Elt Ideal))
    (a6 : (⟨S256x256, .f32⟩ : BufTy).Contents (Elt Ideal)) (a7 a8 a9 : (⟨S256, .f32⟩ : BufTy).Contents (Elt Ideal))
    (a10 : (⟨S256x256, .f32⟩ : BufTy).Contents (Elt Ideal)) (a11 a12 a13 a14 a15 : (⟨S256, .f32⟩ : BufTy).Contents (Elt Ideal)) :
    Cert.ReferenceIdeal.Read.val_main_v111 (F := Ideal) a0 a1 a2 a3 a4 a5 a6 a7 a8 a9 a10 a11 a12 a13 a14 a15
      = Cert.DeqSpec.Zout a0 a1 a2 a3 a4 a5 a6 a7 a8 a9 a10 a11 a12 a13 a14 a15 := by
  funext i
  obtain ⟨r, j, rfl⟩ : ∃ (r : Fin 262144) (j : Fin 256), i = ix2 r j := ⟨i 0, i 1, eq_ix2 i⟩
  exact congrFun (row_v111 a0 a1 a2 a3 a4 a5 a6 a7 a8 a9 a10 a11 a12 a13 a14 a15 r) j

/-- The reference's output projection, before its final reshape, is the specification's. -/
theorem ref_dx (a0 : (⟨S262144x48, .f32⟩ : BufTy).Contents (Elt Ideal)) (a1 : (⟨S262144x256, .f32⟩ : BufTy).Contents (Elt Ideal))
    (a2 : (⟨S48x256, .f32⟩ : BufTy).Contents (Elt Ideal)) (a3 a4 a5 : (⟨S256, .f32⟩ : BufTy).Contents (Elt Ideal))
    (a6 : (⟨S256x256, .f32⟩ : BufTy).Contents (Elt Ideal)) (a7 a8 a9 : (⟨S256, .f32⟩ : BufTy).Contents (Elt Ideal))
    (a10 : (⟨S256x256, .f32⟩ : BufTy).Contents (Elt Ideal)) (a11 a12 a13 a14 a15 : (⟨S256, .f32⟩ : BufTy).Contents (Elt Ideal))
    (a16 : (⟨S256x32, .f32⟩ : BufTy).Contents (Elt Ideal)) (a17 : (⟨S32, .f32⟩ : BufTy).Contents (Elt Ideal)) :
    Cert.ReferenceIdeal.Read.val_main_v115 (F := Ideal) a0 a1 a2 a3 a4 a5 a6 a7 a8 a9 a10 a11 a12 a13 a14 a15 a16 a17
      = Cert.DeqSpec.Dx a0 a1 a2 a3 a4 a5 a6 a7 a8 a9 a10 a11 a12 a13 a14 a15 a16 a17 := by
  funext i
  obtain ⟨r, j, rfl⟩ : ∃ (r : Fin 262144) (j : Fin 32), i = ix2 r j := ⟨i 0, i 1, eq_ix2 i⟩
  exact congrFun (row_v115 a0 a1 a2 a3 a4 a5 a6 a7 a8 a9 a10 a11 a12 a13 a14 a15 a16 a17 r) j

end Cert.DeqRef

end
-- ==== Proof.lean ====
/-
  The certificate of the fused layer against its jnp reference.

  The kernel walks 128 tiles of 2048 batch rows; on each it computes, row by row,
      xinp = LN (x W_inp + b_inp),  z1 = LN (relu (z W_1 + b_1)),  inner = LN (xinp + (z1 W_2 + b_2)),
      z_out = LN (relu (z1 + inner)),  dx = z_out W_out + b_out,
  with the weights cast to bf16 on the host beforehand and the four matrix products taken on bf16 operands into an f32
  accumulator; the reference computes the same rows on whole arrays in f32, adding `(xinp + z1 W_2) + b_2`. At the
  ideal values a change of float format is the identity, a matrix product into the zero accumulator is the plain sum
  of products on both sides, the two quotients by 256 and the two reciprocal square roots are the same functions, and
  addition of extended reals is associative with no side condition: so the two programs compute one function of the
  arguments, `DeqSpec.Zout` and `DeqSpec.Dx`, and no finiteness of the inputs is used.

  * `DeqSpec`: the layer on one row, and the two result arrays as functions of the arguments.
  * `KernelOps`, `KernelBody`: the kernel body's stored blocks read at an index are the row function of the loaded blocks' rows.
  * `KernelBlocks`, `KernelArrays`: each loaded block is rows of an argument, the written blocks cover the result
    arrays, and the host's last reshape is applied to the projection: the kernel's run ends at the specification.
  * `RefOps`, `RefValue`: the reference's stages read at an index are the same row functions.
  The ideal pass rewrote nothing, so `preserves` has no conjunct.
-/
import proofs.«132396_j15496242004634_2_alg».proof.Defs
import proofs.«132396_j15496242004634_2_alg».proof.Proof.Gen.Kernel
import proofs.«132396_j15496242004634_2_alg».proof.Proof.Gen.Kernel.Skeleton
import proofs.«132396_j15496242004634_2_alg».proof.Proof.Gen.Kernel.Launch
import proofs.«132396_j15496242004634_2_alg».proof.Proof.Gen.Kernel.Points
import proofs.«132396_j15496242004634_2_alg».proof.Proof.Gen.Kernel.Frame
import proofs.«132396_j15496242004634_2_alg».proof.Proof.Gen.KernelIdeal
import proofs.«132396_j15496242004634_2_alg».proof.Proof.Gen.KernelIdeal.Skeleton
import proofs.«132396_j15496242004634_2_alg».proof.Proof.Gen.KernelIdeal.Launch
import proofs.«132396_j15496242004634_2_alg».proof.Proof.Gen.KernelIdeal.Points
import proofs.«132396_j15496242004634_2_alg».proof.Proof.Gen.KernelIdeal.Frame
import proofs.«132396_j15496242004634_2_alg».proof.Proof.Gen.ReferenceIdeal
import proofs.«132396_j15496242004634_2_alg».proof.Proof.Gen.Pre_finite_inputs
import proofs.«132396_j15496242004634_2_alg».proof.Proof.Gen.ReferenceIdeal.Run
import proofs.«132396_j15496242004634_2_alg».proof.Proof.Gen.ReferenceIdeal.Read
import proofs.«132396_j15496242004634_2_alg».proof.Proof.KernelArrays
import proofs.«132396_j15496242004634_2_alg».proof.Proof.RefValue
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the projection `DeqSpec.Dx` of the arguments reshaped to `[262144, 8, 4]` and the new state
    `DeqSpec.Zout` of the arguments; the arguments agree, so the results are equal. -/
theorem algebraic : Cert.algebraic_KernelIdeal_ReferenceIdeal := by
  intro m ρ m' ρ' _ hagree
  refine ⟨_, _, Cert.DeqKernel.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17⟩ := hagree c
    rw [Cert.ReferenceIdeal.Read.val_main_v116_eq]
    unfold Cert.ReferenceIdeal.Read.val_main_v116
    rw [Cert.DeqRef.ref_dx, e0, e1, e2, e3, e4, e5, e6, e7, e8, e9, e10, e11, e12, e13, e14, e15, e16, e17]
  · obtain ⟨e0, e1, e2, e3, e4, e5, e6, e7, e8, e9, e10, e11, e12, e13, e14, e15, e16, e17⟩ := hagree c
    rw [Cert.ReferenceIdeal.Read.val_main_v111_eq, Cert.DeqRef.ref_zout, e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
